-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S32x1 .f32) (main_arg17 : FVec F S1 .f32) (main_v63 : IVec S_ 1) (main_v67 : IVec S_ 1) : IVec S_ 1 :=
  let main_v68 : IVec S_ 1 := andi main_v63 main_v67
  let main_v69 : FVec F S32x1 .f32 := Host.absf main_arg16
  let main_cst_26 : FVec F S_ .f32 := constant S_ .f32 0x7F800000#32
  let main_v70 : FVec F S32x1 .f32 := broadcastInDim S32x1 ![] bcast_S_S32x1 main_cst_26
  let main_v71 : IVec S32x1 1 := cmpf .olt main_v69 main_v70
  let main_c_27 : IVec S_ 1 := constantI S_ 1 1#1
  let main_v72 : IVec S_ 1 := (fun x v => Host.reduce IntOp.andi x v reducesTo_S32x1_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg13 : FVec F S32x32 .f32) (main_arg14 : FVec F S32 .f32) (main_arg15 : FVec F S32x32 .f32) (main_arg16 : FVec F S32x1 .f32) (main_arg17 : FVec F S1 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32x32 .f32 := Host.absf main_arg13
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x32 .f32 := Host.absf main_arg15
  let main_cst_24 : FVec F S_ .f32 := constant S_ .f32 0x7F800000#32
  let main_v65 : FVec F S32x32 .f32 := broadcastInDim S32x32 ![] bcast_S_S32x32 main_cst_24
  let main_v66 : IVec S32x32 1 := cmpf .olt main_v64 main_v65
  let main_c_25 : IVec S_ 1 := constantI S_ 1 1#1
  let main_v67 : IVec S_ 1 := (fun x v => Host.reduce IntOp.andi x v reducesTo_S32x32_S_d0_1 h_S_) main_v66 main_c_25
  fn_part4 (F := F) main_arg16 main_arg17 main_v63 main_v67

def fn_part2 {F : FTy → Type} [FloatOps F] (main_arg9 : FVec F S64x32 .f32) (main_arg10 : FVec F S32x32 .f32) (main_arg11 : FVec F S32 .f32) (main_arg12 : FVec F S32x32 .f32) (main_arg13 : FVec F S32x32 .f32) (main_arg14 : FVec F S32 .f32) (main_arg15 : FVec F S32x32 .f32) (main_arg16 : FVec F S32x1 .f32) (main_arg17 : FVec F S1 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32x32 .f32 := Host.absf main_arg10
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x32 .f32 := Host.absf main_arg12
  let main_cst_18 : FVec F S_ .f32 := constant S_ .f32 0x7F800000#32
  let main_v50 : FVec F S32x32 .f32 := broadcastInDim S32x32 ![] bcast_S_S32x32 main_cst_18
  fn_part3 (F := F) main_arg13 main_arg14 main_arg15 main_arg16 main_arg17 main_v48 main_v49 main_v50

def fn_part1 {F : FTy → Type} [FloatOps F] (main_arg6 : FVec F S64x32 .f32) (main_arg7 : FVec F S64x32 .f32) (main_arg8 : FVec F S32 .f32) (main_arg9 : FVec F S64x32 .f32) (main_arg10 : FVec F S32x32 .f32) (main_arg11 : FVec F S32 .f32) (main_arg12 : FVec F S32x32 .f32) (main_arg13 : FVec F S32x32 .f32) (main_arg14 : FVec F S32 .f32) (main_arg15 : FVec F S32x32 .f32) (main_arg16 : FVec F S32x1 .f32) (main_arg17 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S64x32 .f32 := Host.absf main_arg6
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S100000x64 .f32) (main_arg1 : FVec F S100000x64 .f32) (main_arg2 : IVec S2x1600000 32) (main_arg3 : IVec S2x1600000 32) (main_arg4 : FVec F S64x32 .f32) (main_arg5 : FVec F S32 .f32) (main_arg6 : FVec F S64x32 .f32) (main_arg7 : FVec F S64x32 .f32) (main_arg8 : FVec F S32 .f32) (main_arg9 : FVec F S64x32 .f32) (main_arg10 : FVec F S32x32 .f32) (main_arg11 : FVec F S32 .f32) (main_arg12 : FVec F S32x32 .f32) (main_arg13 : FVec F S32x32 .f32) (main_arg14 : FVec F S32 .f32) (main_arg15 : FVec F S32x32 .f32) (main_arg16 : FVec F S32x1 .f32) (main_arg17 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x32 .f32 := Host.absf main_arg4
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x32 : Shape := ⟨2, ![1, 32]⟩
abbrev S100000x32 : Shape := ⟨2, ![100000, 32]⟩
abbrev S5000x64 : Shape := ⟨2, ![5000, 64]⟩
abbrev S5000x1 : Shape := ⟨2, ![5000, 1]⟩
abbrev S5000x32 : Shape := ⟨2, ![5000, 32]⟩
abbrev S1600000x32 : Shape := ⟨2, ![1600000, 32]⟩
abbrev S1x1 : Shape := ⟨2, ![1, 1]⟩

abbrev nBuf : Space → Nat
  | .hbm => 97
  | .vmem => 35
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x1600000, .i32⟩
  | .hbm, ⟨3, _⟩ => ⟨S2x1600000, .i32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S64x32, .f32⟩
  | .hbm, ⟨8, _⟩ => ⟨S32, .f32⟩
  | .hbm, ⟨9, _⟩ => ⟨S64x32, .f32⟩
  | .hbm, ⟨10, _⟩ => ⟨S32x32, .f32⟩
  | .hbm, ⟨11, _⟩ => ⟨S32, .f32⟩
  | .hbm, ⟨12, _⟩ => ⟨S32x32, .f32⟩
  | .hbm, ⟨13, _⟩ => ⟨S32x32, .f32⟩
  | .hbm, ⟨14, _⟩ => ⟨S32, .f32⟩
  | .hbm, ⟨15, _⟩ => ⟨S32x32, .f32⟩
  | .hbm, ⟨16, _⟩ => ⟨S32x1, .f32⟩
  | .hbm, ⟨17, _⟩ => ⟨S1, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S_, .f32⟩
  | .hbm, ⟨32, _⟩ => ⟨S100000x64, .f32⟩
  | .hbm, ⟨33, _⟩ => ⟨S1600000x1, .i32⟩
  | .hbm, ⟨34, _⟩ => ⟨S100000x64, .f32⟩
  | .hbm, ⟨35, _⟩ => ⟨S_, .f32⟩
  | .hbm, ⟨36, _⟩ => ⟨S1600000, .f32⟩
  | .hbm, ⟨37, _⟩ => ⟨S_, .f32⟩
  | .hbm, ⟨38, _⟩ => ⟨S100000, .f32⟩
  | .hbm, ⟨39, _⟩ => ⟨S1600000x1, .i32⟩
  | .hbm, ⟨40, _⟩ => ⟨S100000, .f32⟩
  | .hbm, ⟨41, _⟩ => ⟨S100000x1, .f32⟩
  | .hbm, ⟨42, _⟩ => ⟨S1x32, .f32⟩
  | .hbm, ⟨43, _⟩ => ⟨S100000x32, .f32⟩
  | .hbm, ⟨44, _⟩ => ⟨S1x1600000, .i32⟩
  | .hbm, ⟨45, _⟩ => ⟨S1600000, .i32⟩
  | .hbm, ⟨46, _⟩ => ⟨S1x1600000, .i32⟩
  | .hbm, ⟨47, _⟩ => ⟨S1600000, .i32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S100000x1, .f32⟩
  | .hbm, ⟨68, _⟩ => ⟨S1x32, .f32⟩
  | .hbm, ⟨69, _⟩ => ⟨S100000x32, .f32⟩
  | .hbm, ⟨70, _⟩ => ⟨S1x1600000, .i32⟩
  | .hbm, ⟨71, _⟩ => ⟨S1600000, .i32⟩
  | .hbm, ⟨72, _⟩ => ⟨S1x1600000, .i32⟩
  | .hbm, ⟨73, _⟩ => ⟨S1600000, .i32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x32, .f32⟩
  | .hbm, ⟨83, _⟩ => ⟨S_, .f32⟩
  | .hbm, ⟨84, _⟩ => ⟨S100000x32, .f32⟩
  | .hbm, ⟨85, _⟩ => ⟨S1600000x1, .i32⟩
  | .hbm, ⟨86, _⟩ => ⟨S100000x32, .f32⟩
  | .hbm, ⟨87, _⟩ => ⟨S_, .f32⟩
  | .hbm, ⟨88, _⟩ => ⟨S1600000, .f32⟩
  | .hbm, ⟨89, _⟩ => ⟨S_, .f32⟩
  | .hbm, ⟨90, _⟩ => ⟨S100000, .f32⟩
  | .hbm, ⟨91, _⟩ => ⟨S1600000x1, .i32⟩
  | .hbm, ⟨92, _⟩ => ⟨S100000, .f32⟩
  | .hbm, ⟨93, _⟩ => ⟨S100000x1, .f32⟩
  | .hbm, ⟨94, _⟩ => ⟨S1x32, .f32⟩
  | .hbm, ⟨95, _⟩ => ⟨S1x1, .f32⟩
  | .hbm, ⟨96, _⟩ => ⟨S100000x1, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S64x32, .f32⟩
  | .local _ .vmem, ⟨7, _⟩ => ⟨S1x32, .f32⟩
  | .local _ .vmem, ⟨8, _⟩ => ⟨S64x32, .f32⟩
  | .local _ .vmem, ⟨9, _⟩ => ⟨S5000x32, .f32⟩
  | .local _ .vmem, ⟨10, _⟩ => ⟨S5000x32, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S5000x64, .f32⟩
  | .local _ .vmem, ⟨16, _⟩ => ⟨S5000x64, .f32⟩
  | .local _ .vmem, ⟨17, _⟩ => ⟨S64x32, .f32⟩
  | .local _ .vmem, ⟨18, _⟩ => ⟨S1x32, .f32⟩
  | .local _ .vmem, ⟨19, _⟩ => ⟨S64x32, .f32⟩
  | .local _ .vmem, ⟨20, _⟩ => ⟨S5000x32, .f32⟩
  | .local _ .vmem, ⟨21, _⟩ => ⟨S5000x32, .f32⟩
  | .local _ .vmem, ⟨22, _⟩ => ⟨S5000x32, .f32⟩
  | .local _ .vmem, ⟨23, _⟩ => ⟨S5000x32, .f32⟩
  | .local _ .vmem, ⟨24, _⟩ => ⟨S5000x1, .f32⟩
  | .local _ .vmem, ⟨25, _⟩ => ⟨S5000x1, .f32⟩
  | .local _ .vmem, ⟨26, _⟩ => ⟨S5000x32, .f32⟩
  | .local _ .vmem, ⟨27, _⟩ => ⟨S5000x32, .f32⟩
  | .local _ .vmem, ⟨28, _⟩ => ⟨S32x32, .f32⟩
  | .local _ .vmem, ⟨29, _⟩ => ⟨S1x32, .f32⟩
  | .local _ .vmem, ⟨30, _⟩ => ⟨S32x32, .f32⟩
  | .local _ .vmem, ⟨31, _⟩ => ⟨S32x1, .f32⟩
  | .local _ .vmem, ⟨32, _⟩ => ⟨S1x1, .f32⟩
  | .local _ .vmem, ⟨33, _⟩ => ⟨S5000x1, .f32⟩
  | .local _ .vmem, ⟨34, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_3 : Ref sig .tc := ⟨.hbm, 48, rfl⟩
abbrev main_v25 : Ref sig .tc := ⟨.hbm, 49, rfl⟩
abbrev main_v26 : Ref sig .tc := ⟨.hbm, 50, rfl⟩
abbrev main_c_4 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_cst_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_8 : Ref sig .tc := ⟨.hbm, 74, rfl⟩
abbrev main_v46 : Ref sig .tc := ⟨.hbm, 75, rfl⟩
abbrev main_v47 : Ref sig .tc := ⟨.hbm, 76, rfl⟩
abbrev main_c_9 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_11 : Ref sig .tc := ⟨.hbm, 87, rfl⟩
abbrev main_v56 : Ref sig .tc := ⟨.hbm, 88, rfl⟩
abbrev main_cst_12 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg8_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem8_1 : DmaSem sig := 34

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  shapeCasts_S32_S1x32 : S32.ShapeCasts S1x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  shapeCasts_S1_S1x1 : S1.ShapeCasts S1x1
  shapeCasts_S5000x32_S5000x32 : S5000x32.ShapeCasts S5000x32
  broadcasts_S5000x1_S5000x32 : S5000x1.Broadcasts S5000x32
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x32_S5000x32_1_0_0_1_n_n_wf : DotDims.WF S5000x64 S64x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x32_S5000x32_1_0_0_1_n_n_wf : DotDims.WF S5000x32 S32x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x32.size a ≤ S100000x32.size a
  hwx0_6 : ∀ i : grid0.Coords, EltTy.bits .f32 = 32 ∨ (Rect.block (s := S100000x32) S5000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .f32 = 32 ∨ (Rect.block (s := S64x32) S64x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x32.size a ≤ S100000x32.size a
  hwx1_6 : ∀ i : grid1.Coords, EltTy.bits .f32 = 32 ∨ (Rect.block (s := S100000x32) S5000x32.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x32.size a ≤ S32x32.size a
  hwx2_5 : ∀ i : grid2.Coords, EltTy.bits .f32 = 32 ∨ (Rect.block (s := S32x32) S32x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32x1.size a ≤ S32x1.size a
  hwx2_6 : ∀ i : grid2.Coords, EltTy.bits .f32 = 32 ∨ (Rect.block (s := S32x1) S32x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1.size a ≤ S1x1.size a
  hwx2_7 : ∀ i : grid2.Coords, EltTy.bits .f32 = 32 ∨ (Rect.block (s := S1x1) S1x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x1.size a ≤ S100000x1.size a
  hwx2_8 : ∀ i : grid2.Coords, EltTy.bits .f32 = 32 ∨ (Rect.block (s := S100000x1) S5000x1.size (cc2_transform_8 i) (hinb2_8 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S5000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v55) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S5000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S32x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg16) S32x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v62) S1x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v63) S5000x1.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x32 : Shape := ⟨2, ![100000, 32]⟩
abbrev S1x32 : Shape := ⟨2, ![1, 32]⟩
abbrev S1600000x32 : Shape := ⟨2, ![1600000, 32]⟩
abbrev S1x1 : Shape := ⟨2, ![1, 1]⟩

abbrev nBuf : Space → Nat
  | .hbm => 141
  | .vmem => 0
  | .smem => 0
  | _ => 0

abbrev hbmTy0_0 (i : Nat) : BufTy := match i % 128 with
  | 0 => ⟨S100000x64, .f32⟩
  | 1 => ⟨S100000x64, .f32⟩
  | 2 => ⟨S2x1600000, .i32⟩
  | 3 => ⟨S2x1600000, .i32⟩
  | 4 => ⟨S64x32, .f32⟩
  | 5 => ⟨S32, .f32⟩
  | 6 => ⟨S64x32, .f32⟩
  | 7 => ⟨S64x32, .f32⟩
  | 8 => ⟨S32, .f32⟩
  | 9 => ⟨S64x32, .f32⟩
  | 10 => ⟨S32x32, .f32⟩
  | 11 => ⟨S32, .f32⟩
  | 12 => ⟨S32x32, .f32⟩
  | 13 => ⟨S32x32, .f32⟩
  | 14 => ⟨S32, .f32⟩
  | 15 => ⟨S32x32, .f32⟩
  | 16 => ⟨S32x1, .f32⟩
  | 17 => ⟨S1, .f32⟩
  | 18 => ⟨S1x1600000, .i32⟩
  | 19 => ⟨S1600000, .i32⟩
  | 20 => ⟨S1x1600000, .i32⟩
  | 21 => ⟨S1600000, .i32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x64, .f32⟩
  | 31 => ⟨S_, .f32⟩
  | 32 => ⟨S100000x64, .f32⟩
  | 33 => ⟨S1600000x1, .i32⟩
  | 34 => ⟨S100000x64, .f32⟩
  | 35 => ⟨S_, .f32⟩
  | 36 => ⟨S1600000, .f32⟩
  | 37 => ⟨S_, .f32⟩
  | 38 => ⟨S100000, .f32⟩
  | 39 => ⟨S1600000x1, .i32⟩
  | 40 => ⟨S100000, .f32⟩
  | 41 => ⟨S_, .f32⟩
  | 42 => ⟨S100000, .f32⟩
  | 43 => ⟨S100000, .f32⟩
  | 44 => ⟨S100000x1, .f32⟩
  | 45 => ⟨S100000x64, .f32⟩
  | 46 => ⟨S100000x64, .f32⟩
  | 47 => ⟨S100000x32, .f32⟩
  | 48 => ⟨S1x32, .f32⟩
  | 49 => ⟨S100000x32, .f32⟩
  | 50 => ⟨S100000x32, .f32⟩
  | 51 => ⟨S100000x32, .f32⟩
  | 52 => ⟨S100000x32, .f32⟩
  | 53 => ⟨S_, .f32⟩
  | 54 => ⟨S100000x32, .f32⟩
  | 55 => ⟨S100000x32, .f32⟩
  | 56 => ⟨S1x1600000, .i32⟩
  | 57 => ⟨S1600000, .i32⟩
  | 58 => ⟨S1x1600000, .i32⟩
  | 59 => ⟨S1600000, .i32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x64, .f32⟩
  | 69 => ⟨S_, .f32⟩
  | 70 => ⟨S100000x64, .f32⟩
  | 71 => ⟨S1600000x1, .i32⟩
  | 72 => ⟨S100000x64, .f32⟩
  | 73 => ⟨S_, .f32⟩
  | 74 => ⟨S1600000, .f32⟩
  | 75 => ⟨S_, .f32⟩
  | 76 => ⟨S100000, .f32⟩
  | 77 => ⟨S1600000x1, .i32⟩
  | 78 => ⟨S100000, .f32⟩
  | 79 => ⟨S_, .f32⟩
  | 80 => ⟨S100000, .f32⟩
  | 81 => ⟨S100000, .f32⟩
  | 82 => ⟨S100000x1, .f32⟩
  | 83 => ⟨S100000x64, .f32⟩
  | 84 => ⟨S100000x64, .f32⟩
  | 85 => ⟨S100000x32, .f32⟩
  | 86 => ⟨S1x32, .f32⟩
  | 87 => ⟨S100000x32, .f32⟩
  | 88 => ⟨S100000x32, .f32⟩
  | 89 => ⟨S100000x32, .f32⟩
  | 90 => ⟨S100000x32, .f32⟩
  | 91 => ⟨S_, .f32⟩
  | 92 => ⟨S100000x32, .f32⟩
  | 93 => ⟨S100000x32, .f32⟩
  | 94 => ⟨S1x1600000, .i32⟩
  | 95 => ⟨S1600000, .i32⟩
  | 96 => ⟨S1x1600000, .i32⟩
  | 97 => ⟨S1600000, .i32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x32, .f32⟩
  | 107 => ⟨S_, .f32⟩
  | 108 => ⟨S100000x32, .f32⟩
  | 109 => ⟨S1600000x1, .i32⟩
  | 110 => ⟨S100000x32, .f32⟩
  | 111 => ⟨S_, .f32⟩
  | 112 => ⟨S1600000, .f32⟩
  | 113 => ⟨S_, .f32⟩
  | 114 => ⟨S100000, .f32⟩
  | 115 => ⟨S1600000x1, .i32⟩
  | 116 => ⟨S100000, .f32⟩
  | 117 => ⟨S_, .f32⟩
  | 118 => ⟨S100000, .f32⟩
  | 119 => ⟨S100000, .f32⟩
  | 120 => ⟨S100000x1, .f32⟩
  | 121 => ⟨S100000x32, .f32⟩
  | 122 => ⟨S100000x32, .f32⟩
  | 123 => ⟨S100000x32, .f32⟩
  | 124 => ⟨S1x32, .f32⟩
  | 125 => ⟨S100000x32, .f32⟩
  | 126 => ⟨S100000x32, .f32⟩
  | 127 => ⟨S100000x32, .f32⟩
  | _ => ⟨S100000x64, .f32⟩

abbrev hbmTy0_1 (i : Nat) : BufTy := match i % 128 with
  | 0 => ⟨S100000x32, .f32⟩
  | 1 => ⟨S100000x1, .f32⟩
  | 2 => ⟨S1x1, .f32⟩
  | 3 => ⟨S100000x1, .f32⟩
  | 4 => ⟨S100000x1, .f32⟩
  | 5 => ⟨S100000x1, .f32⟩
  | 6 => ⟨S100000x1, .f32⟩
  | 7 => ⟨S_, .f32⟩
  | 8 => ⟨S100000x1, .f32⟩
  | 9 => ⟨S100000x1, .f32⟩
  | 10 => ⟨S_, .f32⟩
  | 11 => ⟨S100000x1, .f32⟩
  | 12 => ⟨S100000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call0_cst : Ref sig .tc := ⟨.hbm, 53, rfl⟩
abbrev main_call0_v0 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_4 : Ref sig .tc := ⟨.hbm, 60, rfl⟩
abbrev main_v34 : Ref sig .tc := ⟨.hbm, 61, rfl⟩
abbrev main_v35 : Ref sig .tc := ⟨.hbm, 62, rfl⟩
abbrev main_c_5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_6 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_7 : Ref sig .tc := ⟨.hbm, 73, rfl⟩
abbrev main_v44 : Ref sig .tc := ⟨.hbm, 74, rfl⟩
abbrev main_cst_8 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_9 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_call1_cst : Ref sig .tc := ⟨.hbm, 91, rfl⟩
abbrev main_call1_v0 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_10 : Ref sig .tc := ⟨.hbm, 98, rfl⟩
abbrev main_v64 : Ref sig .tc := ⟨.hbm, 99, rfl⟩
abbrev main_v65 : Ref sig .tc := ⟨.hbm, 100, rfl⟩
abbrev main_c_11 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_12 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_13 : Ref sig .tc := ⟨.hbm, 111, rfl⟩
abbrev main_v74 : Ref sig .tc := ⟨.hbm, 112, rfl⟩
abbrev main_cst_14 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_15 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_16 : Ref sig .tc := ⟨.hbm, 135, rfl⟩
abbrev main_v95 : Ref sig .tc := ⟨.hbm, 136, rfl⟩
abbrev main_v96 : Ref sig .tc := ⟨.hbm, 137, rfl⟩
abbrev main_cst_17 : Ref sig .tc := ⟨.hbm, 138, rfl⟩
abbrev main_v97 : Ref sig .tc := ⟨.hbm, 139, rfl⟩
abbrev main_v98 : Ref sig .tc := ⟨.hbm, 140, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []
  dot_S100000x32_S32x1_S100000x1_1_0_0_1_n_n_wf : DotDims.WF S100000x32 S32x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KernelRun.lean ====
/-
  The idealized kernel's run with every buffer named. The program is three pipelined launches among stretches of
  host operations; run from any memory with zero counters, every weakly fair execution terminates, nothing
  faulting, and each buffer that outlives a launch ends at the last boundary's contents `W6`: the fold of the host
  stretches' results and of what each launch's write-backs leave, from the launch memory. The frame claim keeps of
  this only the argument arrays; a value claim reads the result buffer off the same fold.
-/
import proofs.«122091_j77335181132165_2_alg».proof.Proof.Gen.KernelIdeal.Frame

set_option maxRecDepth 16384

noncomputable section

namespace Cert.Sage.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates, nothing faulting, with every unscoped
    buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run, keeping the result buffer and the argument arrays: the result at the fold's contents, each argument
    as launched. -/
theorem run_result : θ_run defs (onTc (τ := τ) (main (F := F))) ⟨m, fun _ => 0, ρ⟩ (fun r => ∀ c : Dev nD,
      r.2.mem ((c.tc : Thread nD τ).loc main_v63) = W6 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨h c _ (mem_uc main_v63 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c),
     (h c _ (mem_uc main_arg14 (by decide))).trans (W6_main_arg14 m ρ c),
     (h c _ (mem_uc main_arg15 (by decide))).trans (W6_main_arg15 m ρ c),
     (h c _ (mem_uc main_arg16 (by decide))).trans (W6_main_arg16 m ρ c),
     (h c _ (mem_uc main_arg17 (by decide))).trans (W6_main_arg17 m ρ c)⟩) (run_all m ρ)

end Cert.Sage.KRun

end
-- ==== Proof.SageSpec.lean ====
/-
  The mathematics both programs compute, index by index on the extended reals.

  One SAGE layer takes, per destination node `r`, the sum `agg r ·` of its in-neighbours' feature rows and
  their number `cnt r`, and returns, per output feature `j`,

      ( Σ_k  (agg r k / max (cnt r) 1) · Wl k j )  +  bl j  +  Σ_k  xdst r k · Wr k j

  (`sageLin64` over 64 input features, `sageLin32` over 32). The first layer clamps this at zero
  (`sageRelu`); the head applies the second layer, contracts its 32 features with `wlin`, adds `blin` and
  applies the logistic function `x ↦ 1 / (1 + e^(-x))` (`sageHead`). Nothing here mentions a program.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The float word `1.0`. -/
abbrev one32 : EReal := Ideal.ofBits .f32 0x3F800000#32
/-- The float word `0.0`. -/
abbrev zero32 : EReal := Ideal.ofBits .f32 0x00000000#32

/-- The word `1.0` denotes the extended real `1`. -/
theorem one32_eq : one32 = 1 := by
  simp [one32, Ideal.ofBits, Ideal.ieee]
  rw [← EReal.coe_mul, ← EReal.coe_one]
  congr 1
  norm_num

/-- A layer's linear part at node `r`, output feature `j`, over 64 input features. -/
def sageLin64 (agg : FVec Ideal ⟨2, ![100000, 64]⟩ .f32) (cnt : FVec Ideal ⟨1, ![100000]⟩ .f32)
    (xdst : FVec Ideal ⟨2, ![100000, 64]⟩ .f32) (wl : FVec Ideal ⟨2, ![64, 32]⟩ .f32) (bl : FVec Ideal ⟨1, ![32]⟩ .f32)
    (wr : FVec Ideal ⟨2, ![64, 32]⟩ .f32) (r : Fin 100000) (j : Fin 32) : EReal :=
  ((∑ k : Fin 64, Ideal.div (agg (ix2 r k)) (max (cnt (ix1 r)) one32) * wl (ix2 k j)) + bl (ix1 j))
    + ∑ k : Fin 64, xdst (ix2 r k) * wr (ix2 k j)

/-- The same over 32 input features. -/
def sageLin32 (agg : FVec Ideal ⟨2, ![100000, 32]⟩ .f32) (cnt : FVec Ideal ⟨1, ![100000]⟩ .f32)
    (xdst : FVec Ideal ⟨2, ![100000, 32]⟩ .f32) (wl : FVec Ideal ⟨2, ![32, 32]⟩ .f32) (bl : FVec Ideal ⟨1, ![32]⟩ .f32)
    (wr : FVec Ideal ⟨2, ![32, 32]⟩ .f32) (r : Fin 100000) (j : Fin 32) : EReal :=
  ((∑ k : Fin 32, Ideal.div (agg (ix2 r k)) (max (cnt (ix1 r)) one32) * wl (ix2 k j)) + bl (ix1 j))
    + ∑ k : Fin 32, xdst (ix2 r k) * wr (ix2 k j)

/-- The first layer: the linear part clamped at zero. -/
def sageRelu (agg : FVec Ideal ⟨2, ![100000, 64]⟩ .f32) (cnt : FVec Ideal ⟨1, ![100000]⟩ .f32)
    (xdst : FVec Ideal ⟨2, ![100000, 64]⟩ .f32) (wl : FVec Ideal ⟨2, ![64, 32]⟩ .f32) (bl : FVec Ideal ⟨1, ![32]⟩ .f32)
    (wr : FVec Ideal ⟨2, ![64, 32]⟩ .f32) : FVec Ideal ⟨2, ![100000, 32]⟩ .f32 :=
  fun i => max (sageLin64 agg cnt xdst wl bl wr (i 0) (i 1)) zero32

/-- The second layer and the head: the layer's 32 features against `wlin`, plus `blin`, through the logistic
    function. -/
def sageHead (agg : FVec Ideal ⟨2, ![100000, 32]⟩ .f32) (cnt : FVec Ideal ⟨1, ![100000]⟩ .f32)
    (xdst : FVec Ideal ⟨2, ![100000, 32]⟩ .f32) (wl : FVec Ideal ⟨2, ![32, 32]⟩ .f32) (bl : FVec Ideal ⟨1, ![32]⟩ .f32)
    (wr : FVec Ideal ⟨2, ![32, 32]⟩ .f32) (wlin : FVec Ideal ⟨2, ![32, 1]⟩ .f32) (blin : FVec Ideal ⟨1, ![1]⟩ .f32) :
    FVec Ideal ⟨2, ![100000, 1]⟩ .f32 :=
  fun i => Ideal.logistic
    ((∑ j : Fin 32, sageLin32 agg cnt xdst wl bl wr (i 0) j * wlin (ix2 j (0 : Fin 1))) + blin (ix1 (0 : Fin 1)))

/-- The layer's linear part on one block of 5000 rows: row `p` of the block, output feature `j`. The block of
    counts is a column `[5000, 1]` and the bias a row `[1, 32]`, as a kernel body finds them. -/
def blkLin64 (agg : FVec Ideal ⟨2, ![5000, 64]⟩ .f32) (cnt : FVec Ideal ⟨2, ![5000, 1]⟩ .f32)
    (xdst : FVec Ideal ⟨2, ![5000, 64]⟩ .f32) (wl : FVec Ideal ⟨2, ![64, 32]⟩ .f32) (bl : FVec Ideal ⟨2, ![1, 32]⟩ .f32)
    (wr : FVec Ideal ⟨2, ![64, 32]⟩ .f32) (p : Fin 5000) (j : Fin 32) : EReal :=
  ((∑ k : Fin 64, Ideal.div (agg (ix2 p k)) (max (cnt (ix2 p (0 : Fin 1))) one32) * wl (ix2 k j)) + bl (ix2 (0 : Fin 1) j))
    + ∑ k : Fin 64, xdst (ix2 p k) * wr (ix2 k j)

/-- The same over 32 input features. -/
def blkLin32 (agg : FVec Ideal ⟨2, ![5000, 32]⟩ .f32) (cnt : FVec Ideal ⟨2, ![5000, 1]⟩ .f32)
    (xdst : FVec Ideal ⟨2, ![5000, 32]⟩ .f32) (wl : FVec Ideal ⟨2, ![32, 32]⟩ .f32) (bl : FVec Ideal ⟨2, ![1, 32]⟩ .f32)
    (wr : FVec Ideal ⟨2, ![32, 32]⟩ .f32) (p : Fin 5000) (j : Fin 32) : EReal :=
  ((∑ k : Fin 32, Ideal.div (agg (ix2 p k)) (max (cnt (ix2 p (0 : Fin 1))) one32) * wl (ix2 k j)) + bl (ix2 (0 : Fin 1) j))
    + ∑ k : Fin 32, xdst (ix2 p k) * wr (ix2 k j)

/-- The first layer on one block. -/
def blkRelu (agg : FVec Ideal ⟨2, ![5000, 64]⟩ .f32) (cnt : FVec Ideal ⟨2, ![5000, 1]⟩ .f32)
    (xdst : FVec Ideal ⟨2, ![5000, 64]⟩ .f32) (wl : FVec Ideal ⟨2, ![64, 32]⟩ .f32) (bl : FVec Ideal ⟨2, ![1, 32]⟩ .f32)
    (wr : FVec Ideal ⟨2, ![64, 32]⟩ .f32) (p : Fin 5000) (j : Fin 32) : EReal :=
  max (blkLin64 agg cnt xdst wl bl wr p j) zero32

/-- The second layer and the head on one block; `blin` is a `[1, 1]` block. -/
def blkHead (agg : FVec Ideal ⟨2, ![5000, 32]⟩ .f32) (cnt : FVec Ideal ⟨2, ![5000, 1]⟩ .f32)
    (xdst : FVec Ideal ⟨2, ![5000, 32]⟩ .f32) (wl : FVec Ideal ⟨2, ![32, 32]⟩ .f32) (bl : FVec Ideal ⟨2, ![1, 32]⟩ .f32)
    (wr : FVec Ideal ⟨2, ![32, 32]⟩ .f32) (wlin : FVec Ideal ⟨2, ![32, 1]⟩ .f32) (blin : FVec Ideal ⟨2, ![1, 1]⟩ .f32)
    (p : Fin 5000) : EReal :=
  Ideal.logistic
    ((∑ j : Fin 32, blkLin32 agg cnt xdst wl bl wr p j * wlin (ix2 j (0 : Fin 1))) + blin (ix2 (0 : Fin 1) (0 : Fin 1)))

/-- The logistic function spelt with the float word `1.0`, as a host program that expands it writes it. -/
theorem logistic_words (x : EReal) : Ideal.div one32 (one32 + Ideal.exp (-x)) = Ideal.logistic x := by
  rw [one32_eq]; rfl

end Cert.Sage

end
-- ==== Proof.SageArr.lean ====
/-
  The layers on whole arrays in the layout a launch finds them: the neighbour counts as a column `[100000, 1]`, a
  bias as a row `[1, 32]`, the head's bias as `[1, 1]`. Each is the specification's function of the same data
  with the column read at `(r, 0)` and the row at `(0, j)`.
-/
import proofs.«122091_j77335181132165_2_alg».proof.Proof.SageSpec

noncomputable section

namespace Cert.Sage

open Idealize.ShloMosaic Idealize.ShloMosaic.ValueIdx

/-- The first layer over whole arrays, counts a column and bias a row. -/
def arrRelu (agg : FVec Ideal ⟨2, ![100000, 64]⟩ .f32) (cnt : FVec Ideal ⟨2, ![100000, 1]⟩ .f32)
    (xdst : FVec Ideal ⟨2, ![100000, 64]⟩ .f32) (wl : FVec Ideal ⟨2, ![64, 32]⟩ .f32) (bl : FVec Ideal ⟨2, ![1, 32]⟩ .f32)
    (wr : FVec Ideal ⟨2, ![64, 32]⟩ .f32) : FVec Ideal ⟨2, ![100000, 32]⟩ .f32 :=
  fun i => max
    (((∑ k : Fin 64, Ideal.div (agg (ix2 (i 0) k)) (max (cnt (ix2 (i 0) (0 : Fin 1))) one32) * wl (ix2 k (i 1)))
        + bl (ix2 (0 : Fin 1) (i 1)))
      + ∑ k : Fin 64, xdst (ix2 (i 0) k) * wr (ix2 k (i 1))) zero32

/-- The second layer's linear part over whole arrays, counts a column and bias a row. -/
def arrLin32 (agg : FVec Ideal ⟨2, ![100000, 32]⟩ .f32) (cnt : FVec Ideal ⟨2, ![100000, 1]⟩ .f32)
    (xdst : FVec Ideal ⟨2, ![100000, 32]⟩ .f32) (wl : FVec Ideal ⟨2, ![32, 32]⟩ .f32) (bl : FVec Ideal ⟨2, ![1, 32]⟩ .f32)
    (wr : FVec Ideal ⟨2, ![32, 32]⟩ .f32) (r : Fin 100000) (j : Fin 32) : EReal :=
  ((∑ k : Fin 32, Ideal.div (agg (ix2 r k)) (max (cnt (ix2 r (0 : Fin 1))) one32) * wl (ix2 k j)) + bl (ix2 (0 : Fin 1) j))
    + ∑ k : Fin 32, xdst (ix2 r k) * wr (ix2 k j)

/-- The second layer and the head over whole arrays. -/
def arrHead (agg : FVec Ideal ⟨2, ![100000, 32]⟩ .f32) (cnt : FVec Ideal ⟨2, ![100000, 1]⟩ .f32)
    (xdst : FVec Ideal ⟨2, ![100000, 32]⟩ .f32) (wl : FVec Ideal ⟨2, ![32, 32]⟩ .f32) (bl : FVec Ideal ⟨2, ![1, 32]⟩ .f32)
    (wr : FVec Ideal ⟨2, ![32, 32]⟩ .f32) (wlin : FVec Ideal ⟨2, ![32, 1]⟩ .f32) (blin : FVec Ideal ⟨2, ![1, 1]⟩ .f32) :
    FVec Ideal ⟨2, ![100000, 1]⟩ .f32 :=
  fun i => Ideal.logistic
    ((∑ j : Fin 32, arrLin32 agg cnt xdst wl bl wr (i 0) j * wlin (ix2 j (0 : Fin 1))) + blin (ix2 (0 : Fin 1) (0 : Fin 1)))

/-- A block's entry is the array's: if row `p` of each row-block is row `r` of its array and the weight and bias
    blocks are the whole arrays, the layer on the block at `(p, q)` is the layer on the arrays at `(r, q)`. -/
theorem blkRelu_of_arr (agg : FVec Ideal ⟨2, ![100000, 64]⟩ .f32) (cnt : FVec Ideal ⟨2, ![100000, 1]⟩ .f32)
    (xdst : FVec Ideal ⟨2, ![100000, 64]⟩ .f32) (wl : FVec Ideal ⟨2, ![64, 32]⟩ .f32) (bl : FVec Ideal ⟨2, ![1, 32]⟩ .f32)
    (wr : FVec Ideal ⟨2, ![64, 32]⟩ .f32)
    (bagg : FVec Ideal ⟨2, ![5000, 64]⟩ .f32) (bcnt : FVec Ideal ⟨2, ![5000, 1]⟩ .f32)
    (bxdst : FVec Ideal ⟨2, ![5000, 64]⟩ .f32) (bwl : FVec Ideal ⟨2, ![64, 32]⟩ .f32) (bbl : FVec Ideal ⟨2, ![1, 32]⟩ .f32)
    (bwr : FVec Ideal ⟨2, ![64, 32]⟩ .f32) (r : Fin 100000) (p : Fin 5000) (q : Fin 32)
    (h0 : ∀ k : Fin 64, bagg (ix2 p k) = agg (ix2 r k)) (h1 : bcnt (ix2 p (0 : Fin 1)) = cnt (ix2 r (0 : Fin 1)))
    (h2 : ∀ k : Fin 64, bxdst (ix2 p k) = xdst (ix2 r k)) (h3 : ∀ k : Fin 64, bwl (ix2 k q) = wl (ix2 k q))
    (h4 : bbl (ix2 (0 : Fin 1) q) = bl (ix2 (0 : Fin 1) q)) (h5 : ∀ k : Fin 64, bwr (ix2 k q) = wr (ix2 k q)) :
    blkRelu bagg bcnt bxdst bwl bbl bwr p q = arrRelu agg cnt xdst wl bl wr (ix2 r q) := by
  unfold blkRelu blkLin64 arrRelu
  simp only [h0, h1, h2, h3, h4, h5]

/-- The same for the second layer and the head. -/
theorem blkHead_of_arr (agg : FVec Ideal ⟨2, ![100000, 32]⟩ .f32) (cnt : FVec Ideal ⟨2, ![100000, 1]⟩ .f32)
    (xdst : FVec Ideal ⟨2, ![100000, 32]⟩ .f32) (wl : FVec Ideal ⟨2, ![32, 32]⟩ .f32) (bl : FVec Ideal ⟨2, ![1, 32]⟩ .f32)
    (wr : FVec Ideal ⟨2, ![32, 32]⟩ .f32) (wlin : FVec Ideal ⟨2, ![32, 1]⟩ .f32) (blin : FVec Ideal ⟨2, ![1, 1]⟩ .f32)
    (bagg : FVec Ideal ⟨2, ![5000, 32]⟩ .f32) (bcnt : FVec Ideal ⟨2, ![5000, 1]⟩ .f32)
    (bxdst : FVec Ideal ⟨2, ![5000, 32]⟩ .f32) (bwl : FVec Ideal ⟨2, ![32, 32]⟩ .f32) (bbl : FVec Ideal ⟨2, ![1, 32]⟩ .f32)
    (bwr : FVec Ideal ⟨2, ![32, 32]⟩ .f32) (bwlin : FVec Ideal ⟨2, ![32, 1]⟩ .f32) (bblin : FVec Ideal ⟨2, ![1, 1]⟩ .f32)
    (r : Fin 100000) (p : Fin 5000)
    (h0 : ∀ k : Fin 32, bagg (ix2 p k) = agg (ix2 r k)) (h1 : bcnt (ix2 p (0 : Fin 1)) = cnt (ix2 r (0 : Fin 1)))
    (h2 : ∀ k : Fin 32, bxdst (ix2 p k) = xdst (ix2 r k)) (h3 : bwl = wl) (h4 : bbl = bl) (h5 : bwr = wr)
    (h6 : bwlin = wlin) (h7 : bblin = blin) :
    blkHead bagg bcnt bxdst bwl bbl bwr bwlin bblin p = arrHead agg cnt xdst wl bl wr wlin blin (ix2 r (0 : Fin 1)) := by
  subst h3 h4 h5 h6 h7
  unfold blkHead blkLin32 arrHead arrLin32
  simp only [h0, h1, h2]

/-- With the column read off a vector of counts and the row off a vector of biases, the array form is the
    specification. -/
theorem arrRelu_eq (agg : FVec Ideal ⟨2, ![100000, 64]⟩ .f32) (cnt : FVec Ideal ⟨1, ![100000]⟩ .f32)
    (xdst : FVec Ideal ⟨2, ![100000, 64]⟩ .f32) (wl : FVec Ideal ⟨2, ![64, 32]⟩ .f32) (bl : FVec Ideal ⟨1, ![32]⟩ .f32)
    (wr : FVec Ideal ⟨2, ![64, 32]⟩ .f32) :
    arrRelu agg (fun i => cnt (ix1 (i 0))) xdst wl (fun i => bl (ix1 (i 1))) wr = sageRelu agg cnt xdst wl bl wr := rfl

theorem arrHead_eq (agg : FVec Ideal ⟨2, ![100000, 32]⟩ .f32) (cnt : FVec Ideal ⟨1, ![100000]⟩ .f32)
    (xdst : FVec Ideal ⟨2, ![100000, 32]⟩ .f32) (wl : FVec Ideal ⟨2, ![32, 32]⟩ .f32) (bl : FVec Ideal ⟨1, ![32]⟩ .f32)
    (wr : FVec Ideal ⟨2, ![32, 32]⟩ .f32) (wlin : FVec Ideal ⟨2, ![32, 1]⟩ .f32) (blin : FVec Ideal ⟨1, ![1]⟩ .f32) :
    arrHead agg (fun i => cnt (ix1 (i 0))) xdst wl (fun i => bl (ix1 (i 1))) wr wlin (fun i => blin (ix1 (i 1)))
      = sageHead agg cnt xdst wl bl wr wlin blin := rfl

end Cert.Sage

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.LibMatmulRead.lean ====
/-
  A matrix product read at an entry.

  For a product of an `[M, K]` matrix by a `[K, N]` matrix whose dimension record contracts the left operand's columns
  against the right operand's rows, the entry `(p, j)` of the product into a zero accumulator is `∑ₖ L(p, k) · R(k, j)`:
  the contraction index, a one-axis index, is re-indexed by its single coordinate.
-/
import Idealize.ShloMosaic.PureOps.Ideal.Laws
import Idealize.ShloMosaic.Lib.ValueIdx

noncomputable section

namespace Cert.Contract

open Idealize.ShloMosaic Idealize.ShloMosaic.ValueIdx

/-- Entry `(p, j)` of `L · R` accumulated from zero, given where the record sends an output index and a contraction
    index in each operand (`hl0 … hr1`: rows of the left operand follow the output's rows, its columns the contraction;
    rows of the right operand follow the contraction, its columns the output's columns). -/
theorem matmul_zero_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (L : FVec Ideal ⟨2, ![M, K]⟩ φ₁) (R : FVec Ideal ⟨2, ![K, N]⟩ φ₂) (p : Fin M) (j : Fin N) :
    FloatOps.matmul D prec L R (constant (F := Ideal) ⟨2, ![M, N]⟩ .f32 0x00000000#32) (ix2 p j)
      = ∑ k : Fin K, L (ix2 p k) * R (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.Contract

end
-- ==== Proof.KernelBody.lean ====
/-
  Each kernel body's arithmetic read at one index of the block it stores.

  A body divides the aggregated block by the clamped counts (a column broadcast along the features), contracts the
  quotient and the destination block with the two weight matrices (the format changes before each contraction are
  the identity on the extended reals, and a contraction onto the zero constant is the plain sum over its one
  contracted axis), adds the bias row broadcast down the rows, and clamps at zero; the head body contracts the
  second layer's 32 features with the head's column, adds the head's bias and applies the logistic function.
  Read at row `p` and feature `q` this is the specification's block form, term for term.
-/
import proofs.«122091_j77335181132165_2_alg».proof.Proof.Gen.KernelIdeal.Skeleton
import proofs.«122091_j77335181132165_2_alg».proof.Proof.SageSpec
import proofs.«122091_j77335181132165_2_alg».proof.Proof.LibMatmulRead
import proofs.«122091_j77335181132165_2_alg».proof.Proof.LibBroadcast
import Idealize.ShloMosaic.Lib.ValueIdx
import Idealize.ShloMosaic.Lib.Pipeline.Value
import Idealize.ShloMosaic.Lib.ValueLayout
import Idealize.ShloMosaic.PureOps.Ideal.Laws

noncomputable section

namespace Cert.Sage.Body

open Cert.KernelIdeal Cert.KernelIdeal.Gen
open Idealize.ShloMosaic Idealize.ShloMosaic.ValueIdx
open Cert.Layout (broadcastTo_a1_ab_apply)

/-! ## The three contractions read at an index

For each of the bodies' three contraction records: the left operand's index at output index `i` and contraction
index `c` is `(i 0, c)`, the right operand's is `(c, i 1)` (four coordinate facts), and so the contraction onto the
zero constant read at `(p, q)` is the sum over the one contracted axis. -/

theorem matmul64_lhs0 (i : S5000x32.Idx) (c : dot_S5000x64_S64x32_S5000x32_1_0_0_1_n_n.contr.Idx) :
    (dot_S5000x64_S64x32_S5000x32_1_0_0_1_n_n.lhsIdx i c 0).val = (i 0).val := by
  unfold DotDims.lhsIdx
  rw [dif_neg (show ¬(0 : Fin S5000x64.rank) ∈ dot_S5000x64_S64x32_S5000x32_1_0_0_1_n_n.lhsBatch by decide),
    dif_pos (show (0 : Fin S5000x64.rank) ∈ dot_S5000x64_S64x32_S5000x32_1_0_0_1_n_n.lhsNonContracting by decide)]
  rfl
theorem matmul64_lhs1 (i : S5000x32.Idx) (c : dot_S5000x64_S64x32_S5000x32_1_0_0_1_n_n.contr.Idx) :
    (dot_S5000x64_S64x32_S5000x32_1_0_0_1_n_n.lhsIdx i c 1).val = (c ⟨0, by decide⟩).val :=
  dot_S5000x64_S64x32_S5000x32_1_0_0_1_n_n.lhsIdx_val_of_single rfl i c
theorem matmul64_rhs0 (i : S5000x32.Idx) (c : dot_S5000x64_S64x32_S5000x32_1_0_0_1_n_n.contr.Idx) :
    (dot_S5000x64_S64x32_S5000x32_1_0_0_1_n_n.rhsIdx i c 0).val = (c ⟨0, by decide⟩).val :=
  dot_S5000x64_S64x32_S5000x32_1_0_0_1_n_n.rhsIdx_val_of_single rfl i c
theorem matmul64_rhs1 (i : S5000x32.Idx) (c : dot_S5000x64_S64x32_S5000x32_1_0_0_1_n_n.contr.Idx) :
    (dot_S5000x64_S64x32_S5000x32_1_0_0_1_n_n.rhsIdx i c 1).val = (i 1).val := by
  unfold DotDims.rhsIdx
  rw [dif_neg (show ¬(1 : Fin S64x32.rank) ∈ dot_S5000x64_S64x32_S5000x32_1_0_0_1_n_n.rhsBatch by decide),
    dif_pos (show (1 : Fin S64x32.rank) ∈ dot_S5000x64_S64x32_S5000x32_1_0_0_1_n_n.rhsNonContracting by decide)]
  rfl

/-- The first layer's contraction of a `[5000, 64]` block with a `[64, 32]` matrix: at `(p, q)` the sum over the 64
    contracted features of row `p` of the block times column `q` of the matrix. -/
theorem matmul64_apply (l : FVec Ideal S5000x64 .bf16) (r : FVec Ideal S64x32 .bf16) (p : Fin 5000) (q : Fin 32) :
    matmul dot_S5000x64_S64x32_S5000x32_1_0_0_1_n_n none l r (constant (F := Ideal) S5000x32 .f32 0x00000000#32) (ix2 p q)
      = ∑ k : Fin 64, l (ix2 p k) * r (ix2 k q) :=
  Cert.Contract.matmul_zero_ix2 dot_S5000x64_S64x32_S5000x32_1_0_0_1_n_n none rfl rfl
    matmul64_lhs0 matmul64_lhs1 matmul64_rhs0 matmul64_rhs1 l r p q

theorem matmul32_lhs0 (i : S5000x32.Idx) (c : dot_S5000x32_S32x32_S5000x32_1_0_0_1_n_n.contr.Idx) :
    (dot_S5000x32_S32x32_S5000x32_1_0_0_1_n_n.lhsIdx i c 0).val = (i 0).val := by
  unfold DotDims.lhsIdx
  rw [dif_neg (show ¬(0 : Fin S5000x32.rank) ∈ dot_S5000x32_S32x32_S5000x32_1_0_0_1_n_n.lhsBatch by decide),
    dif_pos (show (0 : Fin S5000x32.rank) ∈ dot_S5000x32_S32x32_S5000x32_1_0_0_1_n_n.lhsNonContracting by decide)]
  rfl
theorem matmul32_lhs1 (i : S5000x32.Idx) (c : dot_S5000x32_S32x32_S5000x32_1_0_0_1_n_n.contr.Idx) :
    (dot_S5000x32_S32x32_S5000x32_1_0_0_1_n_n.lhsIdx i c 1).val = (c ⟨0, by decide⟩).val :=
  dot_S5000x32_S32x32_S5000x32_1_0_0_1_n_n.lhsIdx_val_of_single rfl i c
theorem matmul32_rhs0 (i : S5000x32.Idx) (c : dot_S5000x32_S32x32_S5000x32_1_0_0_1_n_n.contr.Idx) :
    (dot_S5000x32_S32x32_S5000x32_1_0_0_1_n_n.rhsIdx i c 0).val = (c ⟨0, by decide⟩).val :=
  dot_S5000x32_S32x32_S5000x32_1_0_0_1_n_n.rhsIdx_val_of_single rfl i c
theorem matmul32_rhs1 (i : S5000x32.Idx) (c : dot_S5000x32_S32x32_S5000x32_1_0_0_1_n_n.contr.Idx) :
    (dot_S5000x32_S32x32_S5000x32_1_0_0_1_n_n.rhsIdx i c 1).val = (i 1).val := by
  unfold DotDims.rhsIdx
  rw [dif_neg (show ¬(1 : Fin S32x32.rank) ∈ dot_S5000x32_S32x32_S5000x32_1_0_0_1_n_n.rhsBatch by decide),
    dif_pos (show (1 : Fin S32x32.rank) ∈ dot_S5000x32_S32x32_S5000x32_1_0_0_1_n_n.rhsNonContracting by decide)]
  rfl

/-- The second layer's contraction of a `[5000, 32]` block with a `[32, 32]` matrix. -/
theorem matmul32_apply (l : FVec Ideal S5000x32 .bf16) (r : FVec Ideal S32x32 .bf16) (p : Fin 5000) (q : Fin 32) :
    matmul dot_S5000x32_S32x32_S5000x32_1_0_0_1_n_n none l r (constant (F := Ideal) S5000x32 .f32 0x00000000#32) (ix2 p q)
      = ∑ k : Fin 32, l (ix2 p k) * r (ix2 k q) :=
  Cert.Contract.matmul_zero_ix2 dot_S5000x32_S32x32_S5000x32_1_0_0_1_n_n none rfl rfl
    matmul32_lhs0 matmul32_lhs1 matmul32_rhs0 matmul32_rhs1 l r p q

theorem matmulHead_lhs0 (i : S5000x1.Idx) (c : dot_S5000x32_S32x1_S5000x1_1_0_0_1_n_n.contr.Idx) :
    (dot_S5000x32_S32x1_S5000x1_1_0_0_1_n_n.lhsIdx i c 0).val = (i 0).val := by
  unfold DotDims.lhsIdx
  rw [dif_neg (show ¬(0 : Fin S5000x32.rank) ∈ dot_S5000x32_S32x1_S5000x1_1_0_0_1_n_n.lhsBatch by decide),
    dif_pos (show (0 : Fin S5000x32.rank) ∈ dot_S5000x32_S32x1_S5000x1_1_0_0_1_n_n.lhsNonContracting by decide)]
  rfl
theorem matmulHead_lhs1 (i : S5000x1.Idx) (c : dot_S5000x32_S32x1_S5000x1_1_0_0_1_n_n.contr.Idx) :
    (dot_S5000x32_S32x1_S5000x1_1_0_0_1_n_n.lhsIdx i c 1).val = (c ⟨0, by decide⟩).val :=
  dot_S5000x32_S32x1_S5000x1_1_0_0_1_n_n.lhsIdx_val_of_single rfl i c
theorem matmulHead_rhs0 (i : S5000x1.Idx) (c : dot_S5000x32_S32x1_S5000x1_1_0_0_1_n_n.contr.Idx) :
    (dot_S5000x32_S32x1_S5000x1_1_0_0_1_n_n.rhsIdx i c 0).val = (c ⟨0, by decide⟩).val :=
  dot_S5000x32_S32x1_S5000x1_1_0_0_1_n_n.rhsIdx_val_of_single rfl i c
theorem matmulHead_rhs1 (i : S5000x1.Idx) (c : dot_S5000x32_S32x1_S5000x1_1_0_0_1_n_n.contr.Idx) :
    (dot_S5000x32_S32x1_S5000x1_1_0_0_1_n_n.rhsIdx i c 1).val = (i 1).val := by
  unfold DotDims.rhsIdx
  rw [dif_neg (show ¬(1 : Fin S32x1.rank) ∈ dot_S5000x32_S32x1_S5000x1_1_0_0_1_n_n.rhsBatch by decide),
    dif_pos (show (1 : Fin S32x1.rank) ∈ dot_S5000x32_S32x1_S5000x1_1_0_0_1_n_n.rhsNonContracting by decide)]
  rfl

/-- The head's contraction of the `[5000, 32]` layer output with the head's `[32, 1]` column. -/
theorem matmulHead_apply (l : FVec Ideal S5000x32 .bf16) (r : FVec Ideal S32x1 .bf16) (p : Fin 5000) (q : Fin 1) :
    matmul dot_S5000x32_S32x1_S5000x1_1_0_0_1_n_n none l r (constant (F := Ideal) S5000x1 .f32 0x00000000#32) (ix2 p q)
      = ∑ k : Fin 32, l (ix2 p k) * r (ix2 k q) :=
  Cert.Contract.matmul_zero_ix2 dot_S5000x32_S32x1_S5000x1_1_0_0_1_n_n none rfl rfl
    matmulHead_lhs0 matmulHead_lhs1 matmulHead_rhs0 matmulHead_rhs1 l r p q

/-! ## The first layer's body -/

/-- The first launch's stored block at row `p`, feature `q`: the layer's linear part there, clamped at zero. -/
theorem k0_pay1_apply (v0 : Vec Ideal S5000x1 .f32) (v4 v9 : Vec Ideal S5000x64 .f32) (v11 v13 : Vec Ideal S64x32 .f32)
    (v16 : Vec Ideal S1x32 .f32) (p : Fin 5000) (q : Fin 32) :
    Cert.KernelIdeal.Gen.k0_pay1 (F := Ideal) v0 v4 v9 v11 v13 v16 (ValueIdx.ix2 p q)
      = Cert.Sage.blkRelu v4 v0 v9 v11 v16 v13 p q := by
  unfold Cert.KernelIdeal.Gen.k0_pay1
  refine (maximumf_apply _ _ _).trans ?_
  unfold Cert.Sage.blkRelu Cert.Sage.blkLin64
  refine congrArg₂ max ?_ rfl
  refine (addf_apply _ _ _).trans ?_
  refine congrArg₂ (· + ·) ?_ ?_
  · refine (addf_apply _ _ _).trans ?_
    refine congrArg₂ (· + ·) ?_ ?_
    · -- the aggregated block over the clamped counts, against the left weights
      refine (matmul64_apply _ _ p q).trans ?_
      refine Finset.sum_congr rfl fun k _ => ?_
      refine congrArg₂ (· * ·) ?_ rfl
      refine (divf_apply _ _ _).trans ?_
      refine congrArg₂ Ideal.div ?_ ?_
      · exact congrFun (shapeCast_self v4 _) _
      · refine (broadcastTo_a1_ab_apply _ _ p k).trans ?_
        refine (maximumf_apply _ _ _).trans ?_
        refine congrArg₂ max ?_ rfl
        exact congrFun (shapeCast_self v0 _) _
    · -- the bias row, broadcast down the rows
      refine (broadcastTo_1b_ab_apply _ _ p q).trans ?_
      exact congrFun (shapeCast_self v16 _) _
  · -- the destination block against the right weights
    exact matmul64_apply _ _ p q

/-- The second launch runs the same body. -/
theorem k1_pay1_apply (v0 : Vec Ideal S5000x1 .f32) (v4 v9 : Vec Ideal S5000x64 .f32) (v11 v13 : Vec Ideal S64x32 .f32)
    (v16 : Vec Ideal S1x32 .f32) (p : Fin 5000) (q : Fin 32) :
    Cert.KernelIdeal.Gen.k1_pay1 (F := Ideal) v0 v4 v9 v11 v13 v16 (ValueIdx.ix2 p q)
      = Cert.Sage.blkRelu v4 v0 v9 v11 v16 v13 p q := by
  unfold Cert.KernelIdeal.Gen.k1_pay1
  refine (maximumf_apply _ _ _).trans ?_
  unfold Cert.Sage.blkRelu Cert.Sage.blkLin64
  refine congrArg₂ max ?_ rfl
  refine (addf_apply _ _ _).trans ?_
  refine congrArg₂ (· + ·) ?_ ?_
  · refine (addf_apply _ _ _).trans ?_
    refine congrArg₂ (· + ·) ?_ ?_
    · -- the aggregated block over the clamped counts, against the left weights
      refine (matmul64_apply _ _ p q).trans ?_
      refine Finset.sum_congr rfl fun k _ => ?_
      refine congrArg₂ (· * ·) ?_ rfl
      refine (divf_apply _ _ _).trans ?_
      refine congrArg₂ Ideal.div ?_ ?_
      · exact congrFun (shapeCast_self v4 _) _
      · refine (broadcastTo_a1_ab_apply _ _ p k).trans ?_
        refine (maximumf_apply _ _ _).trans ?_
        refine congrArg₂ max ?_ rfl
        exact congrFun (shapeCast_self v0 _) _
    · -- the bias row, broadcast down the rows
      refine (broadcastTo_1b_ab_apply _ _ p q).trans ?_
      exact congrFun (shapeCast_self v16 _) _
  · -- the destination block against the right weights
    exact matmul64_apply _ _ p q

/-! ## The head's body -/

/-- The second layer's linear part as the head's body computes it, read at row `p`, feature `j`. -/
theorem lin32_apply (v0 : Vec Ideal S5000x1 .f32) (v4 v9 : Vec Ideal S5000x32 .f32) (v12 v14 : Vec Ideal S32x32 .f32)
    (v17 : Vec Ideal S1x32 .f32) (p : Fin 5000) (j : Fin 32) :
    addf
        (addf
          (matmul dot_S5000x32_S32x32_S5000x32_1_0_0_1_n_n none
            (truncf .bf16
              (divf (shapeCast S5000x32 v4 shapeCasts_S5000x32_S5000x32)
                (broadcastTo S5000x32
                  (maximumf (shapeCast S5000x1 v0 shapeCasts_S5000x1_S5000x1)
                    (broadcast S5000x1 (Scalar.ofBits (F := Ideal) .f32 0x3F800000#32)))
                  broadcasts_S5000x1_S5000x32))
              bitsLt_bf16_f32)
            (truncf .bf16 v12 bitsLt_bf16_f32) (constant (F := Ideal) S5000x32 .f32 0x00000000#32))
          (broadcastTo S5000x32 (shapeCast S1x32 v17 shapeCasts_S1x32_S1x32) broadcasts_S1x32_S5000x32))
        (matmul dot_S5000x32_S32x32_S5000x32_1_0_0_1_n_n none
          (truncf .bf16 (shapeCast S5000x32 v9 shapeCasts_S5000x32_S5000x32) bitsLt_bf16_f32)
          (truncf .bf16 v14 bitsLt_bf16_f32) (constant (F := Ideal) S5000x32 .f32 0x00000000#32)) (ix2 p j)
      = Cert.Sage.blkLin32 v4 v0 v9 v12 v17 v14 p j := by
  unfold Cert.Sage.blkLin32
  refine (addf_apply _ _ _).trans ?_
  refine congrArg₂ (· + ·) ?_ ?_
  · refine (addf_apply _ _ _).trans ?_
    refine congrArg₂ (· + ·) ?_ ?_
    · -- the aggregated block over the clamped counts, against the left weights
      refine (matmul32_apply _ _ p j).trans ?_
      refine Finset.sum_congr rfl fun k _ => ?_
      refine congrArg₂ (· * ·) ?_ rfl
      refine (divf_apply _ _ _).trans ?_
      refine congrArg₂ Ideal.div ?_ ?_
      · exact congrFun (shapeCast_self v4 _) _
      · refine (broadcastTo_a1_ab_apply _ _ p k).trans ?_
        refine (maximumf_apply _ _ _).trans ?_
        refine congrArg₂ max ?_ rfl
        exact congrFun (shapeCast_self v0 _) _
    · -- the bias row, broadcast down the rows
      refine (broadcastTo_1b_ab_apply _ _ p j).trans ?_
      exact congrFun (shapeCast_self v17 _) _
  · -- the destination block against the right weights
    refine (matmul32_apply _ _ p j).trans ?_
    refine Finset.sum_congr rfl fun k _ => ?_
    refine congrArg₂ (· * ·) ?_ rfl
    exact congrFun (shapeCast_self v9 _) _

/-- The third launch's stored column at row `p`: the logistic function of the second layer's 32 features against the
    head's column, plus the head's bias. -/
theorem k2_pay1_apply (v0 : Vec Ideal S5000x1 .f32) (v4 v9 : Vec Ideal S5000x32 .f32) (v12 v14 : Vec Ideal S32x32 .f32)
    (v17 : Vec Ideal S1x32 .f32) (v24 : Vec Ideal S32x1 .f32) (v27 : Vec Ideal S1x1 .f32) (p : Fin 5000) :
    Cert.KernelIdeal.Gen.k2_pay1 (F := Ideal) v0 v4 v9 v12 v14 v17 v24 v27 (ValueIdx.ix2 p (0 : Fin 1))
      = Cert.Sage.blkHead v4 v0 v9 v12 v17 v14 v24 v27 p := by
  unfold Cert.KernelIdeal.Gen.k2_pay1
  unfold Cert.Sage.blkHead
  show Ideal.logistic _ = Ideal.logistic _
  refine congrArg Ideal.logistic ?_
  refine (addf_apply _ _ _).trans ?_
  refine congrArg₂ (· + ·) ?_ ?_
  · refine (matmulHead_apply _ _ p (0 : Fin 1)).trans ?_
    refine Finset.sum_congr rfl fun j _ => ?_
    refine congrArg₂ (· * ·) ?_ rfl
    exact lin32_apply v0 v4 v9 v12 v14 v17 p j
  · -- the head's bias, a `[1, 1]` block broadcast down the rows
    refine (broadcastTo_1b_ab_apply _ _ p (0 : Fin 1)).trans ?_
    exact congrFun (shapeCast_self v27 _) _

end Cert.Sage.Body

end
-- ==== Proof.KernelRegions.lean ====
/-
  What each of the two first-layer launches leaves in its output array, as ONE function of the arrays the launch
  found. A launch walks twenty grid points; at point `t` it stages rows `5000 t … 5000 t + 4999` of the aggregated
  features, of the neighbour counts and of the destination features, and the weight matrices and the bias whole;
  the body computes the layer on that block of rows and the block is written back to the same rows of the output.
  Row `r` of the output is therefore the layer's row `r` of the arrays (computed at point `r / 5000`), and the
  twenty blocks tile the output.
-/
import proofs.«122091_j77335181132165_2_alg».proof.Proof.Gen.KernelIdeal.Frame
import proofs.«122091_j77335181132165_2_alg».proof.Proof.SageArr
import proofs.«122091_j77335181132165_2_alg».proof.Proof.KernelBody
import Idealize.ShloMosaic.Lib.Pipeline.Value
import Idealize.ShloMosaic.Lib.ValueIdx

set_option maxRecDepth 16384

noncomputable section

namespace Cert.Sage.Region

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the contents of the core's buffers when a launch is entered
variable (V : (c : Dev nD) → (b : Ref sig .tc) → Buf (Elt Ideal) ((c : Thread nD τ).loc b))

theorem hz : (![0, 0] : Fin 2 → Nat) = fun _ => 0 := funext fun a => by fin_cases a <;> rfl

/-! ## Launch 0: the first layer on `main_v13`, `main_v18`, `main_arg1` with weights `main_arg4`, `main_v19`, `main_arg6`, into `main_v20` -/

/-- The printed index maps over the twenty grid points: a row window's block `t` starts at row block `t`, column
    block `0`; the weight and bias windows are the whole arrays at every point. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s block is row `t · 5000 + p` of the array. -/
def rowOf0 (t : Fin cfg0.N) (p : Fin 5000) : Fin 100000 :=
  ⟨t.val * 5000 + p.val, by have h : t.val < 20 := lt_of_lt_of_eq t.isLt N_0; have := p.isLt; omega⟩

/-- What point `t` writes back is block `t` of the first layer of the arrays the launch found. -/
theorem flushed0 (c : Dev nD) (t : Fin cfg0.N) :
    (dat0 V c).flushed 6 t = ((cfg0.win 6).blk t).view.read (Elt Ideal)
      (arrRelu (V c main_v13) (V c main_v18) (V c main_arg1) (V c main_arg4) (V c main_v19) (V c main_arg6)) := by
  show (cfg0.win 6).cut (grid0.coords t) ((dat0 V c).after 6 t) = _
  rw [after0_6]
  unfold out0_6
  rw [View.canon_unit_zero hz]
  simp only [View.ld_unit_zero (S := S5000x1) hz, View.ld_unit_zero (S := S5000x64) hz, View.ld_unit_zero (S := S64x32) hz, View.ld_unit_zero (S := S1x32) hz]
  funext j
  obtain ⟨p, q, rfl⟩ : ∃ (p : Fin 5000) (q : Fin 32), j = ix2 p q := ⟨j 0, j 1, eq_ix2 j⟩
  obtain ⟨f00, f01, f10, f11, f20, f21, f30, f31, f40, f41, f50, f51, f60, f61⟩ := idx_facts0 t
  refine (Body.k0_pay1_apply (iblk0 V c 1 t) (iblk0 V c 0 t) (iblk0 V c 2 t) (iblk0 V c 3 t) (iblk0 V c 5 t) (iblk0 V c 4 t) p q).trans ?_
  refine (blkRelu_of_arr (V c main_v13) (V c main_v18) (V c main_arg1) (V c main_arg4) (V c main_v19) (V c main_arg6)
    (iblk0 V c 0 t) (iblk0 V c 1 t) (iblk0 V c 2 t) (iblk0 V c 3 t) (iblk0 V c 4 t) (iblk0 V c 5 t) (rowOf0 t p) p q
    (fun k => ?_) ?_ (fun k => ?_) (fun k => ?_) ?_ (fun k => ?_)).trans ?_
  · show V c main_v13 (((cfg0.win 0).blk t).view.emb (ix2 p k)) = V c main_v13 (ix2 (rowOf0 t p) k)
    refine congrArg (V c main_v13) (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  · show V c main_v18 (((cfg0.win 1).blk t).view.emb (ix2 p (0 : Fin 1))) = V c main_v18 (ix2 (rowOf0 t p) (0 : Fin 1))
    refine congrArg (V c main_v18) (funext fun a => Fin.ext ?_)
    match a with
    | ⟨0, _⟩ => show win0_1.index t (0 : Fin 2) * 5000 + 1 * p.val = t.val * 5000 + p.val; omega
    | ⟨1, _⟩ => show win0_1.index t (1 : Fin 2) * 1 + 1 * 0 = 0; omega
  · show V c main_arg1 (((cfg0.win 2).blk t).view.emb (ix2 p k)) = V c main_arg1 (ix2 (rowOf0 t p) k)
    refine congrArg (V c main_arg1) (funext fun a => Fin.ext ?_)
    match a with
    | ⟨0, _⟩ => show win0_2.index t (0 : Fin 2) * 5000 + 1 * p.val = t.val * 5000 + p.val; omega
    | ⟨1, _⟩ => show win0_2.index t (1 : Fin 2) * 64 + 1 * k.val = k.val; omega
  · show V c main_arg4 (((cfg0.win 3).blk t).view.emb (ix2 k q)) = V c main_arg4 (ix2 k q)
    refine congrArg (V c main_arg4) (funext fun a => Fin.ext ?_)
    match a with
    | ⟨0, _⟩ => show win0_3.index t (0 : Fin 2) * 64 + 1 * k.val = k.val; omega
    | ⟨1, _⟩ => show win0_3.index t (1 : Fin 2) * 32 + 1 * q.val = q.val; omega
  · show V c main_v19 (((cfg0.win 4).blk t).view.emb (ix2 (0 : Fin 1) q)) = V c main_v19 (ix2 (0 : Fin 1) q)
    refine congrArg (V c main_v19) (funext fun a => Fin.ext ?_)
    match a with
    | ⟨0, _⟩ => show win0_4.index t (0 : Fin 2) * 1 + 1 * 0 = 0; omega
    | ⟨1, _⟩ => show win0_4.index t (1 : Fin 2) * 32 + 1 * q.val = q.val; omega
  · show V c main_arg6 (((cfg0.win 5).blk t).view.emb (ix2 k q)) = V c main_arg6 (ix2 k q)
    refine congrArg (V c main_arg6) (funext fun a => Fin.ext ?_)
    match a with
    | ⟨0, _⟩ => show win0_5.index t (0 : Fin 2) * 64 + 1 * k.val = k.val; omega
    | ⟨1, _⟩ => show win0_5.index t (1 : Fin 2) * 32 + 1 * q.val = q.val; omega
  · show arrRelu (V c main_v13) (V c main_v18) (V c main_arg1) (V c main_arg4) (V c main_v19) (V c main_arg6) (ix2 (rowOf0 t p) q)
      = arrRelu (V c main_v13) (V c main_v18) (V c main_arg1) (V c main_arg4) (V c main_v19) (V c main_arg6) (((cfg0.win 6).blk t).view.emb (ix2 p q))
    refine congrArg _ (funext fun a => Fin.ext ?_)
    match a with
    | ⟨0, _⟩ => show t.val * 5000 + p.val = win0_6.index t (0 : Fin 2) * 5000 + 1 * p.val; omega
    | ⟨1, _⟩ => show q.val = win0_6.index t (1 : Fin 2) * 32 + 1 * q.val; omega

/-- An index of the output array is in point `t`'s block iff each coordinate is in the block's range on its axis. -/
theorem mem_blk0 (t : Fin cfg0.N) (i : S100000x32.Idx) :
    i ∈ ((cfg0.win 6).blk t).view.set ↔ ∀ a : Fin 2, win0_6.index t a * S5000x32.size a ≤ (i a).val ∧ (i a).val < win0_6.index t a * S5000x32.size a + S5000x32.size a := by
  show i ∈ ((View.whole main_v20).slice (win0_6.rect t)).set ↔ _
  rw [View.set_slice_whole, Rect.mem_set_unit]
  exact Iff.rfl

/-- Row `r` of the output lies in the block of point `r / 5000`: the twenty blocks tile the array. -/
theorem cover0 (i : S100000x32.Idx) : ∃ t : Fin cfg0.N, (cfg0.win 6).flush t = true ∧ i ∈ ((cfg0.win 6).blk t).view.set := by
  have hi0 : (i 0).val < 100000 := (i 0).isLt
  have hi1 : (i 1).val < 32 := (i 1).isLt
  have hN : (i 0).val / 5000 < cfg0.N := lt_of_lt_of_eq (by omega : (i 0).val / 5000 < 20) N_0.symm
  obtain ⟨f00, f01, f10, f11, f20, f21, f30, f31, f40, f41, f50, f51, f60, f61⟩ := idx_facts0 ⟨(i 0).val / 5000, hN⟩
  refine ⟨⟨(i 0).val / 5000, hN⟩, flush0_6 _, ?_⟩
  rw [mem_blk0]
  intro a
  match a with
  | ⟨0, _⟩ =>
    show win0_6.index ⟨(i 0).val / 5000, hN⟩ (0 : Fin 2) * 5000 ≤ (i 0).val ∧ (i 0).val < win0_6.index ⟨(i 0).val / 5000, hN⟩ (0 : Fin 2) * 5000 + 5000
    have e : win0_6.index ⟨(i 0).val / 5000, hN⟩ (0 : Fin 2) = (i 0).val / 5000 := f60
    omega
  | ⟨1, _⟩ =>
    show win0_6.index ⟨(i 0).val / 5000, hN⟩ (1 : Fin 2) * 32 ≤ (i 1).val ∧ (i 1).val < win0_6.index ⟨(i 0).val / 5000, hN⟩ (1 : Fin 2) * 32 + 32
    omega

/-- Launch 0 leaves in its output array the first layer of the arrays it found. -/
theorem region0 (c : Dev nD) : (dat0 V c).arrAt 6 cfg0.N
    = arrRelu (V c main_v13) (V c main_v18) (V c main_arg1) (V c main_arg4) (V c main_v19) (V c main_arg6) :=
  (dat0 V c).arrAt_eq_of_cover 6 _ (fun t _ => flushed0 V c t) cover0

/-! ## Launch 1: the first layer on `main_v34`, `main_v39`, `main_arg0` with weights `main_arg7`, `main_v40`, `main_arg9`, into `main_v41` -/

/-- The printed index maps over the twenty grid points: a row window's block `t` starts at row block `t`, column
    block `0`; the weight and bias windows are the whole arrays at every point. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of point `t`'s block is row `t · 5000 + p` of the array. -/
def rowOf1 (t : Fin cfg1.N) (p : Fin 5000) : Fin 100000 :=
  ⟨t.val * 5000 + p.val, by have h : t.val < 20 := lt_of_lt_of_eq t.isLt N_1; have := p.isLt; omega⟩

/-- What point `t` writes back is block `t` of the first layer of the arrays the launch found. -/
theorem flushed1 (c : Dev nD) (t : Fin cfg1.N) :
    (dat1 V c).flushed 6 t = ((cfg1.win 6).blk t).view.read (Elt Ideal)
      (arrRelu (V c main_v34) (V c main_v39) (V c main_arg0) (V c main_arg7) (V c main_v40) (V c main_arg9)) := by
  show (cfg1.win 6).cut (grid1.coords t) ((dat1 V c).after 6 t) = _
  rw [after1_6]
  unfold out1_6
  rw [View.canon_unit_zero hz]
  simp only [View.ld_unit_zero (S := S5000x1) hz, View.ld_unit_zero (S := S5000x64) hz, View.ld_unit_zero (S := S64x32) hz, View.ld_unit_zero (S := S1x32) hz]
  funext j
  obtain ⟨p, q, rfl⟩ : ∃ (p : Fin 5000) (q : Fin 32), j = ix2 p q := ⟨j 0, j 1, eq_ix2 j⟩
  obtain ⟨f00, f01, f10, f11, f20, f21, f30, f31, f40, f41, f50, f51, f60, f61⟩ := idx_facts1 t
  refine (Body.k1_pay1_apply (iblk1 V c 1 t) (iblk1 V c 0 t) (iblk1 V c 2 t) (iblk1 V c 3 t) (iblk1 V c 5 t) (iblk1 V c 4 t) p q).trans ?_
  refine (blkRelu_of_arr (V c main_v34) (V c main_v39) (V c main_arg0) (V c main_arg7) (V c main_v40) (V c main_arg9)
    (iblk1 V c 0 t) (iblk1 V c 1 t) (iblk1 V c 2 t) (iblk1 V c 3 t) (iblk1 V c 4 t) (iblk1 V c 5 t) (rowOf1 t p) p q
    (fun k => ?_) ?_ (fun k => ?_) (fun k => ?_) ?_ (fun k => ?_)).trans ?_
  · show V c main_v34 (((cfg1.win 0).blk t).view.emb (ix2 p k)) = V c main_v34 (ix2 (rowOf1 t p) k)
    refine congrArg (V c main_v34) (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  · show V c main_v39 (((cfg1.win 1).blk t).view.emb (ix2 p (0 : Fin 1))) = V c main_v39 (ix2 (rowOf1 t p) (0 : Fin 1))
    refine congrArg (V c main_v39) (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega
  · show V c main_arg0 (((cfg1.win 2).blk t).view.emb (ix2 p k)) = V c main_arg0 (ix2 (rowOf1 t p) k)
    refine congrArg (V c main_arg0) (funext fun a => Fin.ext ?_)
    match a with
    | ⟨0, _⟩ => show win1_2.index t (0 : Fin 2) * 5000 + 1 * p.val = t.val * 5000 + p.val; omega
    | ⟨1, _⟩ => show win1_2.index t (1 : Fin 2) * 64 + 1 * k.val = k.val; omega
  · show V c main_arg7 (((cfg1.win 3).blk t).view.emb (ix2 k q)) = V c main_arg7 (ix2 k q)
    refine congrArg (V c main_arg7) (funext fun a => Fin.ext ?_)
    match a with
    | ⟨0, _⟩ => show win1_3.index t (0 : Fin 2) * 64 + 1 * k.val = k.val; omega
    | ⟨1, _⟩ => show win1_3.index t (1 : Fin 2) * 32 + 1 * q.val = q.val; omega
  · show V c main_v40 (((cfg1.win 4).blk t).view.emb (ix2 (0 : Fin 1) q)) = V c main_v40 (ix2 (0 : Fin 1) q)
    refine congrArg (V c main_v40) (funext fun a => Fin.ext ?_)
    match a with
    | ⟨0, _⟩ => show win1_4.index t (0 : Fin 2) * 1 + 1 * 0 = 0; omega
    | ⟨1, _⟩ => show win1_4.index t (1 : Fin 2) * 32 + 1 * q.val = q.val; omega
  · show V c main_arg9 (((cfg1.win 5).blk t).view.emb (ix2 k q)) = V c main_arg9 (ix2 k q)
    refine congrArg (V c main_arg9) (funext fun a => Fin.ext ?_)
    match a with
    | ⟨0, _⟩ => show win1_5.index t (0 : Fin 2) * 64 + 1 * k.val = k.val; omega
    | ⟨1, _⟩ => show win1_5.index t (1 : Fin 2) * 32 + 1 * q.val = q.val; omega
  · show arrRelu (V c main_v34) (V c main_v39) (V c main_arg0) (V c main_arg7) (V c main_v40) (V c main_arg9) (ix2 (rowOf1 t p) q)
      = arrRelu (V c main_v34) (V c main_v39) (V c main_arg0) (V c main_arg7) (V c main_v40) (V c main_arg9) (((cfg1.win 6).blk t).view.emb (ix2 p q))
    refine congrArg _ (funext fun a => Fin.ext ?_)
    match a with
    | ⟨0, _⟩ => show t.val * 5000 + p.val = win1_6.index t (0 : Fin 2) * 5000 + 1 * p.val; omega
    | ⟨1, _⟩ => show q.val = win1_6.index t (1 : Fin 2) * 32 + 1 * q.val; omega

/-- An index of the output array is in point `t`'s block iff each coordinate is in the block's range on its axis. -/
theorem mem_blk1 (t : Fin cfg1.N) (i : S100000x32.Idx) :
    i ∈ ((cfg1.win 6).blk t).view.set ↔ ∀ a : Fin 2, win1_6.index t a * S5000x32.size a ≤ (i a).val ∧ (i a).val < win1_6.index t a * S5000x32.size a + S5000x32.size a := by
  show i ∈ ((View.whole main_v41).slice (win1_6.rect t)).set ↔ _
  rw [View.set_slice_whole, Rect.mem_set_unit]
  exact Iff.rfl

/-- Row `r` of the output lies in the block of point `r / 5000`: the twenty blocks tile the array. -/
theorem cover1 (i : S100000x32.Idx) : ∃ t : Fin cfg1.N, (cfg1.win 6).flush t = true ∧ i ∈ ((cfg1.win 6).blk t).view.set := by
  have hi0 : (i 0).val < 100000 := (i 0).isLt
  have hi1 : (i 1).val < 32 := (i 1).isLt
  have hN : (i 0).val / 5000 < cfg1.N := lt_of_lt_of_eq (by omega : (i 0).val / 5000 < 20) N_1.symm
  obtain ⟨f00, f01, f10, f11, f20, f21, f30, f31, f40, f41, f50, f51, f60, f61⟩ := idx_facts1 ⟨(i 0).val / 5000, hN⟩
  refine ⟨⟨(i 0).val / 5000, hN⟩, flush1_6 _, ?_⟩
  rw [mem_blk1]
  intro a
  match a with
  | ⟨0, _⟩ =>
    show win1_6.index ⟨(i 0).val / 5000, hN⟩ (0 : Fin 2) * 5000 ≤ (i 0).val ∧ (i 0).val < win1_6.index ⟨(i 0).val / 5000, hN⟩ (0 : Fin 2) * 5000 + 5000
    have e : win1_6.index ⟨(i 0).val / 5000, hN⟩ (0 : Fin 2) = (i 0).val / 5000 := f60
    omega
  | ⟨1, _⟩ =>
    show win1_6.index ⟨(i 0).val / 5000, hN⟩ (1 : Fin 2) * 32 ≤ (i 1).val ∧ (i 1).val < win1_6.index ⟨(i 0).val / 5000, hN⟩ (1 : Fin 2) * 32 + 32
    omega

/-- Launch 1 leaves in its output array the first layer of the arrays it found. -/
theorem region1 (c : Dev nD) : (dat1 V c).arrAt 6 cfg1.N
    = arrRelu (V c main_v34) (V c main_v39) (V c main_arg0) (V c main_arg7) (V c main_v40) (V c main_arg9) :=
  (dat1 V c).arrAt_eq_of_cover 6 _ (fun t _ => flushed1 V c t) cover1

end Cert.Sage.Region

end
-- ==== Proof.RefStages.lean ====
/-
  The host program's three stages, read one operation at a time, are the specification's functions.

  Each stage of the host program is a chain of pointwise operations, broadcasts and contractions over
  the opaque neighbour sums (the scattered feature rows and the scattered counts). Reading the chain at an
  index `(r, j)` and identifying the composed index maps with the coordinates `(r, k)`, `(k, j)`, `(r)`, `(j)`
  gives exactly the specification's expression; no arithmetic law is used.
-/
import proofs.«122091_j77335181132165_2_alg».proof.Proof.Gen.ReferenceIdeal.Read
import proofs.«122091_j77335181132165_2_alg».proof.Proof.SageSpec
import Idealize.ShloMosaic.PureOps.Ideal
import Idealize.ShloMosaic.Lib.ValueIdx

noncomputable section

namespace Cert.Sage.Ref

open Cert.ReferenceIdeal Cert.ReferenceIdeal.Gen Idealize.ShloMosaic Idealize.ShloMosaic.ValueIdx Idealize.SL.Sem

/-- The first layer on the first edge set, at destination node `r` and output feature `j`: the clamped linear part,
    over the scattered feature rows and the scattered counts. -/
theorem v29_at (x0 x1 : (⟨S100000x64, .f32⟩ : BufTy).Contents (Elt Ideal)) (x2 : (⟨S2x1600000, .i32⟩ : BufTy).Contents (Elt Ideal))
    (x4 : (⟨S64x32, .f32⟩ : BufTy).Contents (Elt Ideal)) (x5 : (⟨S32, .f32⟩ : BufTy).Contents (Elt Ideal))
    (x6 : (⟨S64x32, .f32⟩ : BufTy).Contents (Elt Ideal)) (r : Fin 100000) (j : Fin 32) :
    Read.val_main_v29 (F := Ideal) x0 x1 x2 x4 x5 x6 (ix2 r j)
      = max (Cert.Sage.sageLin64 (Read.val_main_v13 (F := Ideal) x0 x2) (Read.val_main_v17 (F := Ideal) x2)
          x1 x4 x5 x6 r j) zero32 := by
  -- the composed index maps of the two contractions, the count's broadcasts and the bias's broadcasts
  have el : ∀ k : Fin 64, Read.lidx_main_v23 (ix2 r j) k = ix2 r k := fun k =>
    funext fun a => Fin.ext (by match a with | ⟨0, _⟩ => rfl | ⟨1, _⟩ => rfl)
  have er : ∀ k : Fin 64, Read.ridx_main_v23 (ix2 r j) k = ix2 k j := fun k =>
    funext fun a => Fin.ext (by match a with | ⟨0, _⟩ => rfl | ⟨1, _⟩ => rfl)
  have el' : ∀ k : Fin 64, Read.lidx_main_v27 (ix2 r j) k = ix2 r k := fun k =>
    funext fun a => Fin.ext (by match a with | ⟨0, _⟩ => rfl | ⟨1, _⟩ => rfl)
  have er' : ∀ k : Fin 64, Read.ridx_main_v27 (ix2 r j) k = ix2 k j := fun k =>
    funext fun a => Fin.ext (by match a with | ⟨0, _⟩ => rfl | ⟨1, _⟩ => rfl)
  have ec : ∀ k : Fin 64, Read.idx_main_v20 (Read.idx_main_v21 (ix2 r k)) = ix1 r := fun k =>
    funext fun a => Fin.ext (by match a with | ⟨0, _⟩ => rfl)
  have eb : Read.idx_main_v24 (Read.idx_main_v25 (ix2 r j)) = ix1 j :=
    funext fun a => Fin.ext (by match a with | ⟨0, _⟩ => rfl)
  -- a summand of the neighbour contraction: the mean's quotient, with the count clamped below by one
  have hs : ∀ k : Fin 64,
      Read.val_main_v22 (F := Ideal) x0 x2 (Read.lidx_main_v23 (ix2 r j) k) * x4 (Read.ridx_main_v23 (ix2 r j) k)
        = Ideal.div (Read.val_main_v13 (F := Ideal) x0 x2 (ix2 r k))
            (max (Read.val_main_v17 (F := Ideal) x2 (ix1 r)) one32) * x4 (ix2 k j) := fun k => by
    rw [el k, er k, Read.val_main_v22_apply, Read.val_main_v21_apply, Read.val_main_v20_apply,
      Read.val_main_v19_apply, Read.val_main_v18_apply, Read.val_main_cst_3_apply, ec k,
      Ideal.hostDivf_def, Ideal.maximumf_def, Ideal.ofBits_def]
  -- a summand of the node's own contraction
  have hs' : ∀ k : Fin 64,
      x1 (Read.lidx_main_v27 (ix2 r j) k) * x6 (Read.ridx_main_v27 (ix2 r j) k) = x1 (ix2 r k) * x6 (ix2 k j) := fun k => by
    rw [el' k, er' k]
  rw [Read.val_main_v29_apply, Read.val_main_v28_apply, Read.val_main_v26_apply, Read.val_main_v23_apply,
    Read.val_main_v25_apply, Read.val_main_v24_apply, Read.val_main_v27_apply, Read.val_main_call0_v0_apply,
    Read.val_main_call0_cst_apply, eb, Finset.sum_congr rfl (fun k _ => hs k), Finset.sum_congr rfl (fun k _ => hs' k),
    Ideal.maximumf_def, Ideal.addf_def, Ideal.addf_def, Ideal.ofBits_def]
  unfold sageLin64
  rfl

/-- The first layer on the first edge set is the specification's clamped layer. -/
theorem v29_eq (x0 x1 : (⟨S100000x64, .f32⟩ : BufTy).Contents (Elt Ideal)) (x2 : (⟨S2x1600000, .i32⟩ : BufTy).Contents (Elt Ideal))
    (x4 : (⟨S64x32, .f32⟩ : BufTy).Contents (Elt Ideal)) (x5 : (⟨S32, .f32⟩ : BufTy).Contents (Elt Ideal))
    (x6 : (⟨S64x32, .f32⟩ : BufTy).Contents (Elt Ideal)) :
    Read.val_main_v29 (F := Ideal) x0 x1 x2 x4 x5 x6
      = Cert.Sage.sageRelu (Read.val_main_v13 (F := Ideal) x0 x2) (Read.val_main_v17 (F := Ideal) x2)
          x1 x4 x5 x6 := by
  funext i
  obtain ⟨r, j, rfl⟩ : ∃ (r : Fin 100000) (j : Fin 32), i = ix2 r j := ⟨i 0, i 1, eq_ix2 i⟩
  unfold sageRelu
  exact v29_at x0 x1 x2 x4 x5 x6 r j

/-- The first layer on the second edge set (the two node families exchanged), at destination node `r` and output
    feature `j`. -/
theorem v59_at (x0 x1 : (⟨S100000x64, .f32⟩ : BufTy).Contents (Elt Ideal)) (x3 : (⟨S2x1600000, .i32⟩ : BufTy).Contents (Elt Ideal))
    (x7 : (⟨S64x32, .f32⟩ : BufTy).Contents (Elt Ideal)) (x8 : (⟨S32, .f32⟩ : BufTy).Contents (Elt Ideal))
    (x9 : (⟨S64x32, .f32⟩ : BufTy).Contents (Elt Ideal)) (r : Fin 100000) (j : Fin 32) :
    Read.val_main_v59 (F := Ideal) x0 x1 x3 x7 x8 x9 (ix2 r j)
      = max (Cert.Sage.sageLin64 (Read.val_main_v43 (F := Ideal) x1 x3) (Read.val_main_v47 (F := Ideal) x3)
          x0 x7 x8 x9 r j) zero32 := by
  -- the composed index maps of the two contractions, the count's broadcasts and the bias's broadcasts
  have el : ∀ k : Fin 64, Read.lidx_main_v53 (ix2 r j) k = ix2 r k := fun k =>
    funext fun a => Fin.ext (by match a with | ⟨0, _⟩ => rfl | ⟨1, _⟩ => rfl)
  have er : ∀ k : Fin 64, Read.ridx_main_v53 (ix2 r j) k = ix2 k j := fun k =>
    funext fun a => Fin.ext (by match a with | ⟨0, _⟩ => rfl | ⟨1, _⟩ => rfl)
  have el' : ∀ k : Fin 64, Read.lidx_main_v57 (ix2 r j) k = ix2 r k := fun k =>
    funext fun a => Fin.ext (by match a with | ⟨0, _⟩ => rfl | ⟨1, _⟩ => rfl)
  have er' : ∀ k : Fin 64, Read.ridx_main_v57 (ix2 r j) k = ix2 k j := fun k =>
    funext fun a => Fin.ext (by match a with | ⟨0, _⟩ => rfl | ⟨1, _⟩ => rfl)
  have ec : ∀ k : Fin 64, Read.idx_main_v50 (Read.idx_main_v51 (ix2 r k)) = ix1 r := fun k =>
    funext fun a => Fin.ext (by match a with | ⟨0, _⟩ => rfl)
  have eb : Read.idx_main_v54 (Read.idx_main_v55 (ix2 r j)) = ix1 j :=
    funext fun a => Fin.ext (by match a with | ⟨0, _⟩ => rfl)
  -- a summand of the neighbour contraction: the mean's quotient, with the count clamped below by one
  have hs : ∀ k : Fin 64,
      Read.val_main_v52 (F := Ideal) x1 x3 (Read.lidx_main_v53 (ix2 r j) k) * x7 (Read.ridx_main_v53 (ix2 r j) k)
        = Ideal.div (Read.val_main_v43 (F := Ideal) x1 x3 (ix2 r k))
            (max (Read.val_main_v47 (F := Ideal) x3 (ix1 r)) one32) * x7 (ix2 k j) := fun k => by
    rw [el k, er k, Read.val_main_v52_apply, Read.val_main_v51_apply, Read.val_main_v50_apply,
      Read.val_main_v49_apply, Read.val_main_v48_apply, Read.val_main_cst_9_apply, ec k,
      Ideal.hostDivf_def, Ideal.maximumf_def, Ideal.ofBits_def]
  -- a summand of the node's own contraction
  have hs' : ∀ k : Fin 64,
      x0 (Read.lidx_main_v57 (ix2 r j) k) * x9 (Read.ridx_main_v57 (ix2 r j) k) = x0 (ix2 r k) * x9 (ix2 k j) := fun k => by
    rw [el' k, er' k]
  rw [Read.val_main_v59_apply, Read.val_main_v58_apply, Read.val_main_v56_apply, Read.val_main_v53_apply,
    Read.val_main_v55_apply, Read.val_main_v54_apply, Read.val_main_v57_apply, Read.val_main_call1_v0_apply,
    Read.val_main_call1_cst_apply, eb, Finset.sum_congr rfl (fun k _ => hs k), Finset.sum_congr rfl (fun k _ => hs' k),
    Ideal.maximumf_def, Ideal.addf_def, Ideal.addf_def, Ideal.ofBits_def]
  unfold sageLin64
  rfl

/-- The first layer on the second edge set is the specification's clamped layer. -/
theorem v59_eq (x0 x1 : (⟨S100000x64, .f32⟩ : BufTy).Contents (Elt Ideal)) (x3 : (⟨S2x1600000, .i32⟩ : BufTy).Contents (Elt Ideal))
    (x7 : (⟨S64x32, .f32⟩ : BufTy).Contents (Elt Ideal)) (x8 : (⟨S32, .f32⟩ : BufTy).Contents (Elt Ideal))
    (x9 : (⟨S64x32, .f32⟩ : BufTy).Contents (Elt Ideal)) :
    Read.val_main_v59 (F := Ideal) x0 x1 x3 x7 x8 x9
      = Cert.Sage.sageRelu (Read.val_main_v43 (F := Ideal) x1 x3) (Read.val_main_v47 (F := Ideal) x3)
          x0 x7 x8 x9 := by
  funext i
  obtain ⟨r, j, rfl⟩ : ∃ (r : Fin 100000) (j : Fin 32), i = ix2 r j := ⟨i 0, i 1, eq_ix2 i⟩
  unfold sageRelu
  exact v59_at x0 x1 x3 x7 x8 x9 r j

/-- The second layer's linear part, at destination node `r` and output feature `j`: over the scattered rows of the
    other family's first-layer output, the scattered counts, and this family's first-layer output. -/
theorem v88_at (x0 x1 : (⟨S100000x64, .f32⟩ : BufTy).Contents (Elt Ideal)) (x2 x3 : (⟨S2x1600000, .i32⟩ : BufTy).Contents (Elt Ideal))
    (x4 : (⟨S64x32, .f32⟩ : BufTy).Contents (Elt Ideal)) (x5 : (⟨S32, .f32⟩ : BufTy).Contents (Elt Ideal)) (x6 x7 : (⟨S64x32, .f32⟩ : BufTy).Contents (Elt Ideal))
    (x8 : (⟨S32, .f32⟩ : BufTy).Contents (Elt Ideal)) (x9 : (⟨S64x32, .f32⟩ : BufTy).Contents (Elt Ideal)) (x10 : (⟨S32x32, .f32⟩ : BufTy).Contents (Elt Ideal))
    (x11 : (⟨S32, .f32⟩ : BufTy).Contents (Elt Ideal)) (x12 : (⟨S32x32, .f32⟩ : BufTy).Contents (Elt Ideal)) (r : Fin 100000) (j : Fin 32) :
    Read.val_main_v88 (F := Ideal) x0 x1 x2 x3 x4 x5 x6 x7 x8 x9 x10 x11 x12 (ix2 r j)
      = Cert.Sage.sageLin32 (Read.val_main_v73 (F := Ideal) x0 x1 x2 x3 x7 x8 x9) (Read.val_main_v77 (F := Ideal) x2)
          (Read.val_main_v29 (F := Ideal) x0 x1 x2 x4 x5 x6) x10 x11 x12 r j := by
  -- the composed index maps of the two contractions, the count's broadcasts and the bias's broadcasts
  have el : ∀ k : Fin 32, Read.lidx_main_v83 (ix2 r j) k = ix2 r k := fun k =>
    funext fun a => Fin.ext (by match a with | ⟨0, _⟩ => rfl | ⟨1, _⟩ => rfl)
  have er : ∀ k : Fin 32, Read.ridx_main_v83 (ix2 r j) k = ix2 k j := fun k =>
    funext fun a => Fin.ext (by match a with | ⟨0, _⟩ => rfl | ⟨1, _⟩ => rfl)
  have el' : ∀ k : Fin 32, Read.lidx_main_v87 (ix2 r j) k = ix2 r k := fun k =>
    funext fun a => Fin.ext (by match a with | ⟨0, _⟩ => rfl | ⟨1, _⟩ => rfl)
  have er' : ∀ k : Fin 32, Read.ridx_main_v87 (ix2 r j) k = ix2 k j := fun k =>
    funext fun a => Fin.ext (by match a with | ⟨0, _⟩ => rfl | ⟨1, _⟩ => rfl)
  have ec : ∀ k : Fin 32, Read.idx_main_v80 (Read.idx_main_v81 (ix2 r k)) = ix1 r := fun k =>
    funext fun a => Fin.ext (by match a with | ⟨0, _⟩ => rfl)
  have eb : Read.idx_main_v84 (Read.idx_main_v85 (ix2 r j)) = ix1 j :=
    funext fun a => Fin.ext (by match a with | ⟨0, _⟩ => rfl)
  -- a summand of the neighbour contraction: the mean's quotient, with the count clamped below by one
  have hs : ∀ k : Fin 32,
      Read.val_main_v82 (F := Ideal) x0 x1 x2 x3 x7 x8 x9 (Read.lidx_main_v83 (ix2 r j) k) * x10 (Read.ridx_main_v83 (ix2 r j) k)
        = Ideal.div (Read.val_main_v73 (F := Ideal) x0 x1 x2 x3 x7 x8 x9 (ix2 r k))
            (max (Read.val_main_v77 (F := Ideal) x2 (ix1 r)) one32) * x10 (ix2 k j) := fun k => by
    rw [el k, er k, Read.val_main_v82_apply, Read.val_main_v81_apply, Read.val_main_v80_apply,
      Read.val_main_v79_apply, Read.val_main_v78_apply, Read.val_main_cst_15_apply, ec k,
      Ideal.hostDivf_def, Ideal.maximumf_def, Ideal.ofBits_def]
  -- a summand of the node's own contraction
  have hs' : ∀ k : Fin 32,
      Read.val_main_v29 (F := Ideal) x0 x1 x2 x4 x5 x6 (Read.lidx_main_v87 (ix2 r j) k) * x12 (Read.ridx_main_v87 (ix2 r j) k)
        = Read.val_main_v29 (F := Ideal) x0 x1 x2 x4 x5 x6 (ix2 r k) * x12 (ix2 k j) := fun k => by
    rw [el' k, er' k]
  rw [Read.val_main_v88_apply, Read.val_main_v86_apply, Read.val_main_v83_apply, Read.val_main_v85_apply,
    Read.val_main_v84_apply, Read.val_main_v87_apply, eb, Finset.sum_congr rfl (fun k _ => hs k),
    Finset.sum_congr rfl (fun k _ => hs' k), Ideal.addf_def, Ideal.addf_def]
  unfold sageLin32
  rfl

/-- The head at node `r`: the second layer's 32 features against the last weight column, plus its bias, through
    `1 / (1 + e^(-x))` spelt with the float word `1.0`, which is the logistic function. -/
theorem v98_at (x0 x1 : (⟨S100000x64, .f32⟩ : BufTy).Contents (Elt Ideal)) (x2 x3 : (⟨S2x1600000, .i32⟩ : BufTy).Contents (Elt Ideal))
    (x4 : (⟨S64x32, .f32⟩ : BufTy).Contents (Elt Ideal)) (x5 : (⟨S32, .f32⟩ : BufTy).Contents (Elt Ideal)) (x6 x7 : (⟨S64x32, .f32⟩ : BufTy).Contents (Elt Ideal))
    (x8 : (⟨S32, .f32⟩ : BufTy).Contents (Elt Ideal)) (x9 : (⟨S64x32, .f32⟩ : BufTy).Contents (Elt Ideal)) (x10 : (⟨S32x32, .f32⟩ : BufTy).Contents (Elt Ideal))
    (x11 : (⟨S32, .f32⟩ : BufTy).Contents (Elt Ideal)) (x12 : (⟨S32x32, .f32⟩ : BufTy).Contents (Elt Ideal))
    (x16 : (⟨S32x1, .f32⟩ : BufTy).Contents (Elt Ideal)) (x17 : (⟨S1, .f32⟩ : BufTy).Contents (Elt Ideal)) (r : Fin 100000) :
    Read.val_main_v98 (F := Ideal) x0 x1 x2 x3 x4 x5 x6 x7 x8 x9 x10 x11 x12 x16 x17 (ix2 r (0 : Fin 1))
      = Ideal.logistic
          ((∑ j : Fin 32, Cert.Sage.sageLin32 (Read.val_main_v73 (F := Ideal) x0 x1 x2 x3 x7 x8 x9) (Read.val_main_v77 (F := Ideal) x2)
              (Read.val_main_v29 (F := Ideal) x0 x1 x2 x4 x5 x6) x10 x11 x12 r j * x16 (ix2 j (0 : Fin 1)))
            + x17 (ix1 (0 : Fin 1))) := by
  have el : ∀ k : Fin 32, Read.lidx_main_v89 (ix2 r (0 : Fin 1)) k = ix2 r k := fun k =>
    funext fun a => Fin.ext (by match a with | ⟨0, _⟩ => rfl | ⟨1, _⟩ => rfl)
  have er : ∀ k : Fin 32, Read.ridx_main_v89 (ix2 r (0 : Fin 1)) k = ix2 k (0 : Fin 1) := fun k =>
    funext fun a => Fin.ext (by match a with | ⟨0, _⟩ => rfl | ⟨1, _⟩ => rfl)
  have eb : Read.idx_main_v90 (Read.idx_main_v91 (ix2 r (0 : Fin 1))) = ix1 (0 : Fin 1) :=
    funext fun a => Fin.ext (by match a with | ⟨0, _⟩ => rfl)
  have hs : ∀ k : Fin 32,
      Read.val_main_v88 (F := Ideal) x0 x1 x2 x3 x4 x5 x6 x7 x8 x9 x10 x11 x12 (Read.lidx_main_v89 (ix2 r (0 : Fin 1)) k)
          * x16 (Read.ridx_main_v89 (ix2 r (0 : Fin 1)) k)
        = Cert.Sage.sageLin32 (Read.val_main_v73 (F := Ideal) x0 x1 x2 x3 x7 x8 x9) (Read.val_main_v77 (F := Ideal) x2)
            (Read.val_main_v29 (F := Ideal) x0 x1 x2 x4 x5 x6) x10 x11 x12 r k * x16 (ix2 k (0 : Fin 1)) := fun k => by
    rw [el k, er k, v88_at]
  rw [Read.val_main_v98_apply, Read.val_main_v97_apply, Read.val_main_cst_17_apply, Read.val_main_v96_apply,
    Read.val_main_v95_apply, Read.val_main_cst_16_apply, Read.val_main_v94_apply, Read.val_main_v93_apply,
    Read.val_main_v92_apply, Read.val_main_v89_apply, Read.val_main_v91_apply, Read.val_main_v90_apply, eb,
    Finset.sum_congr rfl (fun k _ => hs k), Ideal.hostDivf_def, Ideal.addf_def, Ideal.hostUnary_exp_def,
    Ideal.hostNegf_def, Ideal.negf_def, Ideal.addf_def, Ideal.ofBits_def]
  exact logistic_words _

/-- The second layer and the head of the host program are the specification's head. -/
theorem v98_eq (x0 x1 : (⟨S100000x64, .f32⟩ : BufTy).Contents (Elt Ideal)) (x2 x3 : (⟨S2x1600000, .i32⟩ : BufTy).Contents (Elt Ideal))
    (x4 : (⟨S64x32, .f32⟩ : BufTy).Contents (Elt Ideal)) (x5 : (⟨S32, .f32⟩ : BufTy).Contents (Elt Ideal)) (x6 x7 : (⟨S64x32, .f32⟩ : BufTy).Contents (Elt Ideal))
    (x8 : (⟨S32, .f32⟩ : BufTy).Contents (Elt Ideal)) (x9 : (⟨S64x32, .f32⟩ : BufTy).Contents (Elt Ideal)) (x10 : (⟨S32x32, .f32⟩ : BufTy).Contents (Elt Ideal))
    (x11 : (⟨S32, .f32⟩ : BufTy).Contents (Elt Ideal)) (x12 : (⟨S32x32, .f32⟩ : BufTy).Contents (Elt Ideal))
    (x16 : (⟨S32x1, .f32⟩ : BufTy).Contents (Elt Ideal)) (x17 : (⟨S1, .f32⟩ : BufTy).Contents (Elt Ideal)) :
    Read.val_main_v98 (F := Ideal) x0 x1 x2 x3 x4 x5 x6 x7 x8 x9 x10 x11 x12 x16 x17
      = Cert.Sage.sageHead (Read.val_main_v73 (F := Ideal) x0 x1 x2 x3 x7 x8 x9) (Read.val_main_v77 (F := Ideal) x2)
          (Read.val_main_v29 (F := Ideal) x0 x1 x2 x4 x5 x6) x10 x11 x12 x16 x17 := by
  funext i
  obtain ⟨r, z, rfl⟩ : ∃ (r : Fin 100000) (z : Fin 1), i = ix2 r z := ⟨i 0, i 1, eq_ix2 i⟩
  obtain rfl : z = 0 := Fin.fin_one_eq_zero z
  unfold sageHead
  exact v98_at x0 x1 x2 x3 x4 x5 x6 x7 x8 x9 x10 x11 x12 x16 x17 r

end Cert.Sage.Ref

end
-- ==== Proof.KernelFold0.lean ====
/-
  What the first launch finds and leaves. The host operations before it gather, for every edge of the first
  relation, the source node's feature row and add it into the destination node's row (the aggregated features), count
  the edges into each destination node, and re-lay the counts as a column and the bias as a row; the launch then
  computes the first layer. So its output array is the reference's first hidden layer of the destination nodes, the
  stage the reference computes by the same host operations followed by its own divisions, products and clamp.
-/
import proofs.«122091_j77335181132165_2_alg».proof.Proof.Gen.KernelIdeal.Frame
import proofs.«122091_j77335181132165_2_alg».proof.Proof.Gen.ReferenceIdeal.Read
import proofs.«122091_j77335181132165_2_alg».proof.Proof.SageArr
import proofs.«122091_j77335181132165_2_alg».proof.Proof.LibBroadcast
import proofs.«122091_j77335181132165_2_alg».proof.Proof.KernelRegions
import proofs.«122091_j77335181132165_2_alg».proof.Proof.RefStages
import Idealize.ShloMosaic.Lib.StableHlo.Run
import Idealize.ShloMosaic.Lib.ValueIdx

set_option maxRecDepth 16384

noncomputable section

namespace Cert.Sage.Fold

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- No operation of a stretch writes the buffer: each operation's one result buffer is another one. -/
local macro "not_written " ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- The first layer of equal arrays is equal. -/
theorem arrRelu_congr {A A' : FVec Ideal ⟨2, ![100000, 64]⟩ .f32} {C C' : FVec Ideal ⟨2, ![100000, 1]⟩ .f32}
    {X X' : FVec Ideal ⟨2, ![100000, 64]⟩ .f32} {WL WL' : FVec Ideal ⟨2, ![64, 32]⟩ .f32} {BL BL' : FVec Ideal ⟨2, ![1, 32]⟩ .f32}
    {WR WR' : FVec Ideal ⟨2, ![64, 32]⟩ .f32} (hA : A = A') (hC : C = C') (hX : X = X') (hWL : WL = WL') (hBL : BL = BL')
    (hWR : WR = WR') : arrRelu A C X WL BL WR = arrRelu A' C' X' WL' BL' WR' := by
  subst hA hC hX hWL hBL hWR; rfl

/-! ## What the first launch finds -/

set_option maxHeartbeats 4000000 in
/-- The aggregated features: the same gather and accumulating scatter of the arguments as the reference's. -/
theorem V1_v13 (c : Dev nD) : V1 m ρ c main_v13 = Cert.ReferenceIdeal.Read.val_main_v13 (F := Ideal) (m ((c : Thread nD τ).loc main_arg0)) (m ((c : Thread nD τ).loc main_arg2)) := by
  conv_lhs => dsimp only [V1, W1, hostOps0]
  after_results
  rfl

set_option maxHeartbeats 4000000 in
/-- The neighbour counts, re-laid as a column. -/
theorem V1_v18 (c : Dev nD) : V1 m ρ c main_v18 = fun i => Cert.ReferenceIdeal.Read.val_main_v17 (F := Ideal) (m ((c : Thread nD τ).loc main_arg2)) (ix1 (i 0)) := by
  conv_lhs => dsimp only [V1, W1, hostOps0]
  after_results
  funext i
  obtain ⟨p, q, rfl⟩ : ∃ (p : Fin 100000) (q : Fin 1), i = ix2 p q := ⟨i 0, i 1, eq_ix2 i⟩
  obtain rfl : q = 0 := Subsingleton.elim _ _
  exact Cert.Layout.shapeCast_col_apply (n := 100000) (Cert.ReferenceIdeal.Read.val_main_v17 (F := Ideal) (m ((c : Thread nD τ).loc main_arg2))) shapeCasts_S100000_S100000x1 p

set_option maxHeartbeats 4000000 in
/-- The bias, re-laid as a row. -/
theorem V1_v19 (c : Dev nD) : V1 m ρ c main_v19 = fun i => (m ((c : Thread nD τ).loc main_arg5)) (ix1 (i 1)) := by
  conv_lhs => dsimp only [V1, W1, hostOps0]
  after_results
  funext i
  obtain ⟨p, q, rfl⟩ : ∃ (p : Fin 1) (q : Fin 32), i = ix2 p q := ⟨i 0, i 1, eq_ix2 i⟩
  obtain rfl : p = 0 := Subsingleton.elim _ _
  exact Cert.Layout.shapeCast_row_apply (n := 32) (m ((c : Thread nD τ).loc main_arg5)) shapeCasts_S32_S1x32 q

theorem V1_arg1 (c : Dev nD) : V1 m ρ c main_arg1 = (m ((c : Thread nD τ).loc main_arg1)) :=
  StableHlo.after_of_forall_not_mem (b := Proc.devRef .tc main_arg1) _ _ (by not_written hostOps0)
theorem V1_arg4 (c : Dev nD) : V1 m ρ c main_arg4 = (m ((c : Thread nD τ).loc main_arg4)) :=
  StableHlo.after_of_forall_not_mem (b := Proc.devRef .tc main_arg4) _ _ (by not_written hostOps0)
theorem V1_arg6 (c : Dev nD) : V1 m ρ c main_arg6 = (m ((c : Thread nD τ).loc main_arg6)) :=
  StableHlo.after_of_forall_not_mem (b := Proc.devRef .tc main_arg6) _ _ (by not_written hostOps0)

/-! ## What it leaves -/

/-- The first launch's output array is the reference's first hidden layer of the destination nodes. -/
theorem left0 (c : Dev nD) : (dat0 (V1 m ρ) c).arrAt 6 cfg0.N
    = Cert.ReferenceIdeal.Read.val_main_v29 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (Region.region0 (V1 m ρ) c).trans
    ((arrRelu_congr (V1_v13 m ρ c) (V1_v18 m ρ c) (V1_arg1 m ρ c) (V1_arg4 m ρ c) (V1_v19 m ρ c) (V1_arg6 m ρ c)).trans
      ((arrRelu_eq _ _ _ _ _ _).trans (Ref.v29_eq _ _ _ _ _ _).symm))

end Cert.Sage.Fold

end
-- ==== Proof.KernelFold1.lean ====
/-
  What the second launch finds and leaves. It is the first layer again with the two node types exchanged: the host
  operations before it aggregate the second relation's source rows and count its edges; every argument array they
  and the launch read is still as launched, one of them having passed through the first launch as an input window.
  Its output array is the reference's first hidden layer of the other node type.
-/
import proofs.«122091_j77335181132165_2_alg».proof.Proof.Gen.KernelIdeal.Frame
import proofs.«122091_j77335181132165_2_alg».proof.Proof.Gen.ReferenceIdeal.Read
import proofs.«122091_j77335181132165_2_alg».proof.Proof.SageArr
import proofs.«122091_j77335181132165_2_alg».proof.Proof.LibBroadcast
import proofs.«122091_j77335181132165_2_alg».proof.Proof.KernelRegions
import proofs.«122091_j77335181132165_2_alg».proof.Proof.RefStages
import proofs.«122091_j77335181132165_2_alg».proof.Proof.KernelFold0
import Idealize.ShloMosaic.Lib.StableHlo.Run
import Idealize.ShloMosaic.Lib.ValueIdx

set_option maxRecDepth 16384

noncomputable section

namespace Cert.Sage.Fold

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- No operation of a stretch writes the buffer: each operation's one result buffer is another one. -/
local macro "not_written " ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## The arguments at the first launch's exit -/

theorem W2_arg0 (c : Dev nD) : W2 m ρ c (Proc.devRef .tc main_arg0) = (m ((c : Thread nD τ).loc main_arg0)) :=
  (W2_of_ne m ρ c main_arg0 (by decide)).trans
    (StableHlo.after_of_forall_not_mem (b := Proc.devRef .tc main_arg0) _ _ (by not_written hostOps0))
theorem W2_arg2 (c : Dev nD) : W2 m ρ c (Proc.devRef .tc main_arg2) = (m ((c : Thread nD τ).loc main_arg2)) :=
  (W2_of_ne m ρ c main_arg2 (by decide)).trans
    (StableHlo.after_of_forall_not_mem (b := Proc.devRef .tc main_arg2) _ _ (by not_written hostOps0))
theorem W2_arg3 (c : Dev nD) : W2 m ρ c (Proc.devRef .tc main_arg3) = (m ((c : Thread nD τ).loc main_arg3)) :=
  (W2_of_ne m ρ c main_arg3 (by decide)).trans
    (StableHlo.after_of_forall_not_mem (b := Proc.devRef .tc main_arg3) _ _ (by not_written hostOps0))
theorem W2_arg7 (c : Dev nD) : W2 m ρ c (Proc.devRef .tc main_arg7) = (m ((c : Thread nD τ).loc main_arg7)) :=
  (W2_of_ne m ρ c main_arg7 (by decide)).trans
    (StableHlo.after_of_forall_not_mem (b := Proc.devRef .tc main_arg7) _ _ (by not_written hostOps0))
theorem W2_arg8 (c : Dev nD) : W2 m ρ c (Proc.devRef .tc main_arg8) = (m ((c : Thread nD τ).loc main_arg8)) :=
  (W2_of_ne m ρ c main_arg8 (by decide)).trans
    (StableHlo.after_of_forall_not_mem (b := Proc.devRef .tc main_arg8) _ _ (by not_written hostOps0))
theorem W2_arg9 (c : Dev nD) : W2 m ρ c (Proc.devRef .tc main_arg9) = (m ((c : Thread nD τ).loc main_arg9)) :=
  (W2_of_ne m ρ c main_arg9 (by decide)).trans
    (StableHlo.after_of_forall_not_mem (b := Proc.devRef .tc main_arg9) _ _ (by not_written hostOps0))
theorem W2_arg10 (c : Dev nD) : W2 m ρ c (Proc.devRef .tc main_arg10) = (m ((c : Thread nD τ).loc main_arg10)) :=
  (W2_of_ne m ρ c main_arg10 (by decide)).trans
    (StableHlo.after_of_forall_not_mem (b := Proc.devRef .tc main_arg10) _ _ (by not_written hostOps0))
theorem W2_arg11 (c : Dev nD) : W2 m ρ c (Proc.devRef .tc main_arg11) = (m ((c : Thread nD τ).loc main_arg11)) :=
  (W2_of_ne m ρ c main_arg11 (by decide)).trans
    (StableHlo.after_of_forall_not_mem (b := Proc.devRef .tc main_arg11) _ _ (by not_written hostOps0))
theorem W2_arg12 (c : Dev nD) : W2 m ρ c (Proc.devRef .tc main_arg12) = (m ((c : Thread nD τ).loc main_arg12)) :=
  (W2_of_ne m ρ c main_arg12 (by decide)).trans
    (StableHlo.after_of_forall_not_mem (b := Proc.devRef .tc main_arg12) _ _ (by not_written hostOps0))
theorem W2_arg16 (c : Dev nD) : W2 m ρ c (Proc.devRef .tc main_arg16) = (m ((c : Thread nD τ).loc main_arg16)) :=
  (W2_of_ne m ρ c main_arg16 (by decide)).trans
    (StableHlo.after_of_forall_not_mem (b := Proc.devRef .tc main_arg16) _ _ (by not_written hostOps0))
theorem W2_arg17 (c : Dev nD) : W2 m ρ c (Proc.devRef .tc main_arg17) = (m ((c : Thread nD τ).loc main_arg17)) :=
  (W2_of_ne m ρ c main_arg17 (by decide)).trans
    (StableHlo.after_of_forall_not_mem (b := Proc.devRef .tc main_arg17) _ _ (by not_written hostOps0))
/-- An argument the first launch read through an input window leaves it as it entered. -/
theorem W2_arg1 (c : Dev nD) : W2 m ρ c (Proc.devRef .tc main_arg1) = (m ((c : Thread nD τ).loc main_arg1)) :=
  (W2_arr m ρ c 2).trans (((dat0 (V1 m ρ) c).arrAt_in 2 rfl _).trans ((A_eq0 (V1 m ρ) c 2).trans (V1_arg1 m ρ c)))

/-! ## What the second launch finds -/

set_option maxHeartbeats 4000000 in
theorem V3_v34 (c : Dev nD) : V3 m ρ c main_v34 = Cert.ReferenceIdeal.Read.val_main_v43 (F := Ideal) (m ((c : Thread nD τ).loc main_arg1)) (m ((c : Thread nD τ).loc main_arg3)) := by
  conv_lhs => dsimp only [V3, W3, hostOps1]
  after_results
  rw [W2_arg1 m ρ c, W2_arg3 m ρ c]
  rfl

set_option maxHeartbeats 4000000 in
theorem V3_v39 (c : Dev nD) : V3 m ρ c main_v39 = fun i => Cert.ReferenceIdeal.Read.val_main_v47 (F := Ideal) (m ((c : Thread nD τ).loc main_arg3)) (ix1 (i 0)) := by
  conv_lhs => dsimp only [V3, W3, hostOps1]
  after_results
  rw [W2_arg3 m ρ c]
  funext i
  obtain ⟨p, q, rfl⟩ : ∃ (p : Fin 100000) (q : Fin 1), i = ix2 p q := ⟨i 0, i 1, eq_ix2 i⟩
  obtain rfl : q = 0 := Subsingleton.elim _ _
  exact Cert.Layout.shapeCast_col_apply (n := 100000) (Cert.ReferenceIdeal.Read.val_main_v47 (F := Ideal) (m ((c : Thread nD τ).loc main_arg3))) shapeCasts_S100000_S100000x1 p

set_option maxHeartbeats 4000000 in
theorem V3_v40 (c : Dev nD) : V3 m ρ c main_v40 = fun i => (m ((c : Thread nD τ).loc main_arg8)) (ix1 (i 1)) := by
  conv_lhs => dsimp only [V3, W3, hostOps1]
  after_results
  rw [W2_arg8 m ρ c]
  funext i
  obtain ⟨p, q, rfl⟩ : ∃ (p : Fin 1) (q : Fin 32), i = ix2 p q := ⟨i 0, i 1, eq_ix2 i⟩
  obtain rfl : p = 0 := Subsingleton.elim _ _
  exact Cert.Layout.shapeCast_row_apply (n := 32) (m ((c : Thread nD τ).loc main_arg8)) shapeCasts_S32_S1x32 q

theorem V3_arg0 (c : Dev nD) : V3 m ρ c main_arg0 = (m ((c : Thread nD τ).loc main_arg0)) :=
  (StableHlo.after_of_forall_not_mem (b := Proc.devRef .tc main_arg0) _ _ (by not_written hostOps1)).trans (W2_arg0 m ρ c)
theorem V3_arg7 (c : Dev nD) : V3 m ρ c main_arg7 = (m ((c : Thread nD τ).loc main_arg7)) :=
  (StableHlo.after_of_forall_not_mem (b := Proc.devRef .tc main_arg7) _ _ (by not_written hostOps1)).trans (W2_arg7 m ρ c)
theorem V3_arg9 (c : Dev nD) : V3 m ρ c main_arg9 = (m ((c : Thread nD τ).loc main_arg9)) :=
  (StableHlo.after_of_forall_not_mem (b := Proc.devRef .tc main_arg9) _ _ (by not_written hostOps1)).trans (W2_arg9 m ρ c)

/-! ## What it leaves -/

/-- The second launch's output array is the reference's first hidden layer of the other node type. -/
theorem left1 (c : Dev nD) : (dat1 (V3 m ρ) c).arrAt 6 cfg1.N
    = Cert.ReferenceIdeal.Read.val_main_v59 (F := Ideal) (m ((c : Thread nD τ).loc main_arg0)) (m ((c : Thread nD τ).loc main_arg1)) (m ((c : Thread nD τ).loc main_arg3)) (m ((c : Thread nD τ).loc main_arg7)) (m ((c : Thread nD τ).loc main_arg8)) (m ((c : Thread nD τ).loc main_arg9)) :=
  (Region.region1 (V3 m ρ) c).trans
    ((arrRelu_congr (V3_v34 m ρ c) (V3_v39 m ρ c) (V3_arg0 m ρ c) (V3_arg7 m ρ c) (V3_v40 m ρ c) (V3_arg9 m ρ c)).trans
      ((arrRelu_eq _ _ _ _ _ _).trans (Ref.v59_eq _ _ _ _ _ _).symm))

end Cert.Sage.Fold

end
-- ==== Proof.KernelRegionHead.lean ====
/-
  What the third launch leaves in its output array, as ONE function of the arrays the launch found. The launch walks
  twenty grid points; at point `t` it stages rows `5000 t … 5000 t + 4999` of the aggregated features, of the
  neighbour counts and of the destination features, and the two weight matrices, the bias row, the head's column
  and the head's bias whole; the body computes the second layer and the head on that block of rows and the block,
  one column wide, is written back to the same rows of the output. Row `r` of the output is therefore the head's
  value at row `r` of the arrays (computed at point `r / 5000`), and the twenty blocks tile the output.
-/
import proofs.«122091_j77335181132165_2_alg».proof.Proof.Gen.KernelIdeal.Frame
import proofs.«122091_j77335181132165_2_alg».proof.Proof.SageArr
import proofs.«122091_j77335181132165_2_alg».proof.Proof.KernelBody
import proofs.«122091_j77335181132165_2_alg».proof.Proof.KernelRegions
import Idealize.ShloMosaic.Lib.Pipeline.Value
import Idealize.ShloMosaic.Lib.ValueIdx

set_option maxRecDepth 16384

noncomputable section

namespace Cert.Sage.Region

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the contents of the core's buffers when the launch is entered
variable (V : (c : Dev nD) → (b : Ref sig .tc) → Buf (Elt Ideal) ((c : Thread nD τ).loc b))

/-! ## Launch 2: the second layer and the head on `main_v55`, `main_v60`, `main_v20` with weights `main_arg10`, `main_v61`, `main_arg12`, the head's column `main_arg16` and bias `main_v62`, into `main_v63` -/

/-- The printed index maps over the twenty grid points: a row window's block `t` starts at row block `t`, column
    block `0`; the weight, bias and head windows are the whole arrays at every point. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- Row `p` of point `t`'s block is row `t · 5000 + p` of the array. -/
def rowOf2 (t : Fin cfg2.N) (p : Fin 5000) : Fin 100000 :=
  ⟨t.val * 5000 + p.val, by have h : t.val < 20 := lt_of_lt_of_eq t.isLt N_2; have := p.isLt; omega⟩

set_option maxHeartbeats 800000 in
/-- What point `t` writes back is block `t` of the second layer and the head of the arrays the launch found. -/
theorem flushed2 (c : Dev nD) (t : Fin cfg2.N) :
    (dat2 V c).flushed 8 t = ((cfg2.win 8).blk t).view.read (Elt Ideal)
      (arrHead (V c main_v55) (V c main_v60) (V c main_v20) (V c main_arg10) (V c main_v61) (V c main_arg12) (V c main_arg16) (V c main_v62)) := by
  show (cfg2.win 8).cut (grid2.coords t) ((dat2 V c).after 8 t) = _
  rw [after2_8]
  unfold out2_8
  rw [View.canon_unit_zero hz]
  simp only [View.ld_unit_zero (S := S5000x1) hz, View.ld_unit_zero (S := S5000x32) hz, View.ld_unit_zero (S := S32x32) hz, View.ld_unit_zero (S := S1x32) hz, View.ld_unit_zero (S := S32x1) hz, View.ld_unit_zero (S := S1x1) hz]
  funext j
  obtain ⟨p, q, rfl⟩ : ∃ (p : Fin 5000) (q : Fin 1), j = ix2 p q := ⟨j 0, j 1, eq_ix2 j⟩
  obtain rfl : q = 0 := Subsingleton.elim _ _
  obtain ⟨f00, f01, f10, f11, f20, f21, f30, f31, f40, f41, f50, f51, f60, f61, f70, f71, f80, f81⟩ := idx_facts2 t
  refine (Body.k2_pay1_apply (iblk2 V c 1 t) (iblk2 V c 0 t) (iblk2 V c 2 t) (iblk2 V c 3 t) (iblk2 V c 5 t) (iblk2 V c 4 t) (iblk2 V c 6 t) (iblk2 V c 7 t) p).trans ?_
  refine (blkHead_of_arr (V c main_v55) (V c main_v60) (V c main_v20) (V c main_arg10) (V c main_v61) (V c main_arg12) (V c main_arg16) (V c main_v62)
    (iblk2 V c 0 t) (iblk2 V c 1 t) (iblk2 V c 2 t) (iblk2 V c 3 t) (iblk2 V c 4 t) (iblk2 V c 5 t) (iblk2 V c 6 t) (iblk2 V c 7 t) (rowOf2 t p) p
    (fun k => ?_) ?_ (fun k => ?_) ?_ ?_ ?_ ?_ ?_).trans ?_
  · show V c main_v55 (((cfg2.win 0).blk t).view.emb (ix2 p k)) = V c main_v55 (ix2 (rowOf2 t p) k)
    refine congrArg (V c main_v55) (funext fun a => Fin.ext ?_)
    match a with
    | ⟨0, _⟩ => show win2_0.index t (0 : Fin 2) * 5000 + 1 * p.val = t.val * 5000 + p.val; omega
    | ⟨1, _⟩ => show win2_0.index t (1 : Fin 2) * 32 + 1 * k.val = k.val; omega
  · show V c main_v60 (((cfg2.win 1).blk t).view.emb (ix2 p (0 : Fin 1))) = V c main_v60 (ix2 (rowOf2 t p) (0 : Fin 1))
    refine congrArg (V c main_v60) (funext fun a => Fin.ext ?_)
    match a with
    | ⟨0, _⟩ => show win2_1.index t (0 : Fin 2) * 5000 + 1 * p.val = t.val * 5000 + p.val; omega
    | ⟨1, _⟩ => show win2_1.index t (1 : Fin 2) * 1 + 1 * 0 = 0; omega
  · show V c main_v20 (((cfg2.win 2).blk t).view.emb (ix2 p k)) = V c main_v20 (ix2 (rowOf2 t p) k)
    refine congrArg (V c main_v20) (funext fun a => Fin.ext ?_)
    match a with
    | ⟨0, _⟩ => show win2_2.index t (0 : Fin 2) * 5000 + 1 * p.val = t.val * 5000 + p.val; omega
    | ⟨1, _⟩ => show win2_2.index t (1 : Fin 2) * 32 + 1 * k.val = k.val; omega
  · funext y
    show V c main_arg10 (((cfg2.win 3).blk t).view.emb y) = V c main_arg10 y
    refine congrArg (V c main_arg10) (funext fun a => Fin.ext ?_)
    match a with
    | ⟨0, _⟩ => show win2_3.index t (0 : Fin 2) * 32 + 1 * (y 0).val = (y 0).val; omega
    | ⟨1, _⟩ => show win2_3.index t (1 : Fin 2) * 32 + 1 * (y 1).val = (y 1).val; omega
  · funext y
    show V c main_v61 (((cfg2.win 4).blk t).view.emb y) = V c main_v61 y
    refine congrArg (V c main_v61) (funext fun a => Fin.ext ?_)
    match a with
    | ⟨0, _⟩ => show win2_4.index t (0 : Fin 2) * 1 + 1 * (y 0).val = (y 0).val; omega
    | ⟨1, _⟩ => show win2_4.index t (1 : Fin 2) * 32 + 1 * (y 1).val = (y 1).val; omega
  · funext y
    show V c main_arg12 (((cfg2.win 5).blk t).view.emb y) = V c main_arg12 y
    refine congrArg (V c main_arg12) (funext fun a => Fin.ext ?_)
    match a with
    | ⟨0, _⟩ => show win2_5.index t (0 : Fin 2) * 32 + 1 * (y 0).val = (y 0).val; omega
    | ⟨1, _⟩ => show win2_5.index t (1 : Fin 2) * 32 + 1 * (y 1).val = (y 1).val; omega
  · funext y
    show V c main_arg16 (((cfg2.win 6).blk t).view.emb y) = V c main_arg16 y
    refine congrArg (V c main_arg16) (funext fun a => Fin.ext ?_)
    match a with
    | ⟨0, _⟩ => show win2_6.index t (0 : Fin 2) * 32 + 1 * (y 0).val = (y 0).val; omega
    | ⟨1, _⟩ => show win2_6.index t (1 : Fin 2) * 1 + 1 * (y 1).val = (y 1).val; omega
  · funext y
    show V c main_v62 (((cfg2.win 7).blk t).view.emb y) = V c main_v62 y
    refine congrArg (V c main_v62) (funext fun a => Fin.ext ?_)
    match a with
    | ⟨0, _⟩ => show win2_7.index t (0 : Fin 2) * 1 + 1 * (y 0).val = (y 0).val; omega
    | ⟨1, _⟩ => show win2_7.index t (1 : Fin 2) * 1 + 1 * (y 1).val = (y 1).val; omega
  · show arrHead (V c main_v55) (V c main_v60) (V c main_v20) (V c main_arg10) (V c main_v61) (V c main_arg12) (V c main_arg16) (V c main_v62) (ix2 (rowOf2 t p) (0 : Fin 1))
      = arrHead (V c main_v55) (V c main_v60) (V c main_v20) (V c main_arg10) (V c main_v61) (V c main_arg12) (V c main_arg16) (V c main_v62) (((cfg2.win 8).blk t).view.emb (ix2 p (0 : Fin 1)))
    refine congrArg _ (funext fun a => Fin.ext ?_)
    match a with
    | ⟨0, _⟩ => show t.val * 5000 + p.val = win2_8.index t (0 : Fin 2) * 5000 + 1 * p.val; omega
    | ⟨1, _⟩ => show 0 = win2_8.index t (1 : Fin 2) * 1 + 1 * 0; omega

/-- An index of the output array is in point `t`'s block iff each coordinate is in the block's range on its axis. -/
theorem mem_blk2 (t : Fin cfg2.N) (i : S100000x1.Idx) :
    i ∈ ((cfg2.win 8).blk t).view.set ↔ ∀ a : Fin 2, win2_8.index t a * S5000x1.size a ≤ (i a).val ∧ (i a).val < win2_8.index t a * S5000x1.size a + S5000x1.size a := by
  show i ∈ ((View.whole main_v63).slice (win2_8.rect t)).set ↔ _
  rw [View.set_slice_whole, Rect.mem_set_unit]
  exact Iff.rfl

/-- Row `r` of the output lies in the block of point `r / 5000`: the twenty blocks tile the array. -/
theorem cover2 (i : S100000x1.Idx) : ∃ t : Fin cfg2.N, (cfg2.win 8).flush t = true ∧ i ∈ ((cfg2.win 8).blk t).view.set := by
  have hi0 : (i 0).val < 100000 := (i 0).isLt
  have hi1 : (i 1).val < 1 := (i 1).isLt
  have hN : (i 0).val / 5000 < cfg2.N := lt_of_lt_of_eq (by omega : (i 0).val / 5000 < 20) N_2.symm
  obtain ⟨f00, f01, f10, f11, f20, f21, f30, f31, f40, f41, f50, f51, f60, f61, f70, f71, f80, f81⟩ := idx_facts2 ⟨(i 0).val / 5000, hN⟩
  refine ⟨⟨(i 0).val / 5000, hN⟩, flush2_8 _, ?_⟩
  rw [mem_blk2]
  intro a
  match a with
  | ⟨0, _⟩ =>
    show win2_8.index ⟨(i 0).val / 5000, hN⟩ (0 : Fin 2) * 5000 ≤ (i 0).val ∧ (i 0).val < win2_8.index ⟨(i 0).val / 5000, hN⟩ (0 : Fin 2) * 5000 + 5000
    have e : win2_8.index ⟨(i 0).val / 5000, hN⟩ (0 : Fin 2) = (i 0).val / 5000 := f80
    omega
  | ⟨1, _⟩ =>
    show win2_8.index ⟨(i 0).val / 5000, hN⟩ (1 : Fin 2) * 1 ≤ (i 1).val ∧ (i 1).val < win2_8.index ⟨(i 0).val / 5000, hN⟩ (1 : Fin 2) * 1 + 1
    omega

/-- Launch 2 leaves in its output array the second layer and the head of the arrays it found. -/
theorem region2 (c : Dev nD) : (dat2 V c).arrAt 8 cfg2.N
    = arrHead (V c main_v55) (V c main_v60) (V c main_v20) (V c main_arg10) (V c main_v61) (V c main_arg12) (V c main_arg16) (V c main_v62) :=
  (dat2 V c).arrAt_eq_of_cover 8 _ (fun t _ => flushed2 V c t) cover2

end Cert.Sage.Region

end
-- ==== Proof.KernelFold2.lean ====
/-
  What the third launch finds and leaves. Between the second launch and the third the host operations gather, for
  every edge of the first relation, the source node's row of the SECOND launch's output and add it into the
  destination node's row; the counts are those computed before the first launch, re-laid again as a column; the
  destination features are the FIRST launch's output, untouched since. The third launch computes the second layer
  and the head on them, so the result buffer is the reference's last stage of the arguments.
-/
import proofs.«122091_j77335181132165_2_alg».proof.Proof.Gen.KernelIdeal.Frame
import proofs.«122091_j77335181132165_2_alg».proof.Proof.Gen.ReferenceIdeal.Read
import proofs.«122091_j77335181132165_2_alg».proof.Proof.SageArr
import proofs.«122091_j77335181132165_2_alg».proof.Proof.LibBroadcast
import proofs.«122091_j77335181132165_2_alg».proof.Proof.KernelRegions
import proofs.«122091_j77335181132165_2_alg».proof.Proof.RefStages
import proofs.«122091_j77335181132165_2_alg».proof.Proof.KernelFold1
import proofs.«122091_j77335181132165_2_alg».proof.Proof.KernelRegionHead
import Idealize.ShloMosaic.Lib.StableHlo.Run
import Idealize.ShloMosaic.Lib.ValueIdx

set_option maxRecDepth 16384

noncomputable section

namespace Cert.Sage.Fold

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- No operation of a stretch writes the buffer: each operation's one result buffer is another one. -/
local macro "not_written " ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- The second layer and the head of equal arrays are equal. -/
theorem arrHead_congr {A A' : FVec Ideal ⟨2, ![100000, 32]⟩ .f32} {C C' : FVec Ideal ⟨2, ![100000, 1]⟩ .f32}
    {X X' : FVec Ideal ⟨2, ![100000, 32]⟩ .f32} {WL WL' : FVec Ideal ⟨2, ![32, 32]⟩ .f32} {BL BL' : FVec Ideal ⟨2, ![1, 32]⟩ .f32}
    {WR WR' : FVec Ideal ⟨2, ![32, 32]⟩ .f32} {WN WN' : FVec Ideal ⟨2, ![32, 1]⟩ .f32} {BN BN' : FVec Ideal ⟨2, ![1, 1]⟩ .f32}
    (hA : A = A') (hC : C = C') (hX : X = X') (hWL : WL = WL') (hBL : BL = BL') (hWR : WR = WR') (hWN : WN = WN') (hBN : BN = BN') :
    arrHead A C X WL BL WR WN BN = arrHead A' C' X' WL' BL' WR' WN' BN' := by
  subst hA hC hX hWL hBL hWR hWN hBN; rfl

/-! ## The buffers at the second launch's exit -/

theorem W4_arg2 (c : Dev nD) : W4 m ρ c (Proc.devRef .tc main_arg2) = (m ((c : Thread nD τ).loc main_arg2)) :=
  (W4_of_ne m ρ c main_arg2 (by decide)).trans
    ((StableHlo.after_of_forall_not_mem (b := Proc.devRef .tc main_arg2) _ _ (by not_written hostOps1)).trans (W2_arg2 m ρ c))
theorem W4_arg10 (c : Dev nD) : W4 m ρ c (Proc.devRef .tc main_arg10) = (m ((c : Thread nD τ).loc main_arg10)) :=
  (W4_of_ne m ρ c main_arg10 (by decide)).trans
    ((StableHlo.after_of_forall_not_mem (b := Proc.devRef .tc main_arg10) _ _ (by not_written hostOps1)).trans (W2_arg10 m ρ c))
theorem W4_arg11 (c : Dev nD) : W4 m ρ c (Proc.devRef .tc main_arg11) = (m ((c : Thread nD τ).loc main_arg11)) :=
  (W4_of_ne m ρ c main_arg11 (by decide)).trans
    ((StableHlo.after_of_forall_not_mem (b := Proc.devRef .tc main_arg11) _ _ (by not_written hostOps1)).trans (W2_arg11 m ρ c))
theorem W4_arg12 (c : Dev nD) : W4 m ρ c (Proc.devRef .tc main_arg12) = (m ((c : Thread nD τ).loc main_arg12)) :=
  (W4_of_ne m ρ c main_arg12 (by decide)).trans
    ((StableHlo.after_of_forall_not_mem (b := Proc.devRef .tc main_arg12) _ _ (by not_written hostOps1)).trans (W2_arg12 m ρ c))
theorem W4_arg16 (c : Dev nD) : W4 m ρ c (Proc.devRef .tc main_arg16) = (m ((c : Thread nD τ).loc main_arg16)) :=
  (W4_of_ne m ρ c main_arg16 (by decide)).trans
    ((StableHlo.after_of_forall_not_mem (b := Proc.devRef .tc main_arg16) _ _ (by not_written hostOps1)).trans (W2_arg16 m ρ c))
theorem W4_arg17 (c : Dev nD) : W4 m ρ c (Proc.devRef .tc main_arg17) = (m ((c : Thread nD τ).loc main_arg17)) :=
  (W4_of_ne m ρ c main_arg17 (by decide)).trans
    ((StableHlo.after_of_forall_not_mem (b := Proc.devRef .tc main_arg17) _ _ (by not_written hostOps1)).trans (W2_arg17 m ρ c))

/-- The second launch's output array at its exit. -/
theorem W4_v41 (c : Dev nD) : W4 m ρ c (Proc.devRef .tc main_v41) = Cert.ReferenceIdeal.Read.val_main_v59 (F := Ideal) (m ((c : Thread nD τ).loc main_arg0)) (m ((c : Thread nD τ).loc main_arg1)) (m ((c : Thread nD τ).loc main_arg3)) (m ((c : Thread nD τ).loc main_arg7)) (m ((c : Thread nD τ).loc main_arg8)) (m ((c : Thread nD τ).loc main_arg9)) :=
  (W4_arr m ρ c 6).trans (left1 m ρ c)

/-- The first launch's output array is untouched by the second stretch and the second launch. -/
theorem W4_v20 (c : Dev nD) : W4 m ρ c (Proc.devRef .tc main_v20) = Cert.ReferenceIdeal.Read.val_main_v29 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (W4_of_ne m ρ c main_v20 (by decide)).trans
    ((StableHlo.after_of_forall_not_mem (b := Proc.devRef .tc main_v20) _ _ (by not_written hostOps1)).trans
      ((W2_arr m ρ c 6).trans (left0 m ρ c)))

set_option maxHeartbeats 4000000 in
/-- The neighbour counts as the first stretch computed them. -/
theorem W1_v17 (c : Dev nD) : W1 m ρ c (Proc.devRef .tc main_v17) = Cert.ReferenceIdeal.Read.val_main_v17 (F := Ideal) (m ((c : Thread nD τ).loc main_arg2)) := by
  conv_lhs => dsimp only [W1, hostOps0]
  after_results
  rfl

/-- They are untouched since. -/
theorem W4_v17 (c : Dev nD) : W4 m ρ c (Proc.devRef .tc main_v17) = Cert.ReferenceIdeal.Read.val_main_v17 (F := Ideal) (m ((c : Thread nD τ).loc main_arg2)) :=
  (W4_of_ne m ρ c main_v17 (by decide)).trans
    ((StableHlo.after_of_forall_not_mem (b := Proc.devRef .tc main_v17) _ _ (by not_written hostOps1)).trans
      ((W2_of_ne m ρ c main_v17 (by decide)).trans (W1_v17 m ρ c)))

/-! ## What the third launch finds -/

set_option maxHeartbeats 4000000 in
/-- The aggregated hidden features: the reference's gather and accumulating scatter of its own first hidden layer. -/
theorem V5_v55 (c : Dev nD) : V5 m ρ c main_v55 = Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) := by
  conv_lhs => dsimp only [V5, W5, hostOps2]
  after_results
  rw [W4_v41 m ρ c, W4_arg2 m ρ c]
  rfl

set_option maxHeartbeats 4000000 in
theorem V5_v60 (c : Dev nD) : V5 m ρ c main_v60 = fun i => Cert.ReferenceIdeal.Read.val_main_v77 (F := Ideal) (m ((c : Thread nD τ).loc main_arg2)) (ix1 (i 0)) := by
  conv_lhs => dsimp only [V5, W5, hostOps2]
  after_results
  rw [W4_v17 m ρ c]
  funext i
  obtain ⟨p, q, rfl⟩ : ∃ (p : Fin 100000) (q : Fin 1), i = ix2 p q := ⟨i 0, i 1, eq_ix2 i⟩
  obtain rfl : q = 0 := Subsingleton.elim _ _
  exact Cert.Layout.shapeCast_col_apply (n := 100000) (Cert.ReferenceIdeal.Read.val_main_v77 (F := Ideal) (m ((c : Thread nD τ).loc main_arg2))) shapeCasts_S100000_S100000x1 p

theorem V5_v20 (c : Dev nD) : V5 m ρ c main_v20 = Cert.ReferenceIdeal.Read.val_main_v29 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (StableHlo.after_of_forall_not_mem (b := Proc.devRef .tc main_v20) _ _ (by not_written hostOps2)).trans (W4_v20 m ρ c)

theorem V5_arg10 (c : Dev nD) : V5 m ρ c main_arg10 = (m ((c : Thread nD τ).loc main_arg10)) :=
  (StableHlo.after_of_forall_not_mem (b := Proc.devRef .tc main_arg10) _ _ (by not_written hostOps2)).trans (W4_arg10 m ρ c)
theorem V5_arg12 (c : Dev nD) : V5 m ρ c main_arg12 = (m ((c : Thread nD τ).loc main_arg12)) :=
  (StableHlo.after_of_forall_not_mem (b := Proc.devRef .tc main_arg12) _ _ (by not_written hostOps2)).trans (W4_arg12 m ρ c)
theorem V5_arg16 (c : Dev nD) : V5 m ρ c main_arg16 = (m ((c : Thread nD τ).loc main_arg16)) :=
  (StableHlo.after_of_forall_not_mem (b := Proc.devRef .tc main_arg16) _ _ (by not_written hostOps2)).trans (W4_arg16 m ρ c)

set_option maxHeartbeats 4000000 in
theorem V5_v61 (c : Dev nD) : V5 m ρ c main_v61 = fun i => (m ((c : Thread nD τ).loc main_arg11)) (ix1 (i 1)) := by
  conv_lhs => dsimp only [V5, W5, hostOps2]
  after_results
  rw [W4_arg11 m ρ c]
  funext i
  obtain ⟨p, q, rfl⟩ : ∃ (p : Fin 1) (q : Fin 32), i = ix2 p q := ⟨i 0, i 1, eq_ix2 i⟩
  obtain rfl : p = 0 := Subsingleton.elim _ _
  exact Cert.Layout.shapeCast_row_apply (n := 32) (m ((c : Thread nD τ).loc main_arg11)) shapeCasts_S32_S1x32 q

set_option maxHeartbeats 4000000 in
theorem V5_v62 (c : Dev nD) : V5 m ρ c main_v62 = fun i => (m ((c : Thread nD τ).loc main_arg17)) (ix1 (i 1)) := by
  conv_lhs => dsimp only [V5, W5, hostOps2]
  after_results
  rw [W4_arg17 m ρ c]
  funext i
  obtain ⟨p, q, rfl⟩ : ∃ (p : Fin 1) (q : Fin 1), i = ix2 p q := ⟨i 0, i 1, eq_ix2 i⟩
  obtain rfl : p = 0 := Subsingleton.elim _ _
  exact Cert.Layout.shapeCast_row_apply (n := 1) (m ((c : Thread nD τ).loc main_arg17)) shapeCasts_S1_S1x1 q

/-! ## What it leaves, and the result buffer -/

/-- The third launch's output array is the reference's last stage of the arguments. -/
theorem left2 (c : Dev nD) : (dat2 (V5 m ρ) c).arrAt 8 cfg2.N
    = Cert.ReferenceIdeal.Read.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg16)) (m ((c : Thread nD τ).loc main_arg17)) :=
  (Region.region2 (V5 m ρ) c).trans
    ((arrHead_congr (V5_v55 m ρ c) (V5_v60 m ρ c) (V5_v20 m ρ c) (V5_arg10 m ρ c) (V5_v61 m ρ c) (V5_arg12 m ρ c)
        (V5_arg16 m ρ c) (V5_v62 m ρ c)).trans
      ((arrHead_eq _ _ _ _ _ _ _ _).trans (Ref.v98_eq _ _ _ _ _ _ _ _ _ _ _ _ _ _ _).symm))

/-- The result buffer at the end of the run. -/
theorem final (c : Dev nD) : W6 m ρ c (Proc.devRef .tc main_v63)
    = Cert.ReferenceIdeal.Read.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg16)) (m ((c : Thread nD τ).loc main_arg17)) :=
  (W6_arr m ρ c 8).trans (left2 m ρ c)

end Cert.Sage.Fold

end
-- ==== Proof.KernelFold.lean ====
/-
  The idealized kernel's result buffer, read through the fold of its run, is the reference's last stage of the
  argument arrays: the third launch's output array, which is the second layer and the head of what the host
  operations and the first two launches left.
-/
import proofs.«122091_j77335181132165_2_alg».proof.Proof.KernelFold2

set_option maxRecDepth 16384

noncomputable section

namespace Cert.Sage.Fold

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

theorem result (c : Dev nD) : W6 m ρ c (Proc.devRef .tc main_v63)
    = Cert.ReferenceIdeal.Read.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg16)) (m ((c : Thread nD τ).loc main_arg17)) :=
  final m ρ c

end Cert.Sage.Fold

end
-- ==== Proof.lean ====
/-
  The kernel is a two-layer mean-aggregation graph network over two families of 100000 nodes, run as three
  launches with host operations between them; the reference is one host program. Read at the ideal values
  (floats are extended reals, every operation exact), the two compute one function of the argument arrays.

  A layer takes, per destination node, the sum of its in-neighbours' feature rows and their number, divides
  the one by the other clamped below by one, contracts the quotient with a weight matrix, adds a bias and adds
  the node's own row contracted with a second weight matrix. The first layer, on each of the two edge sets,
  clamps this at zero; the head applies a second layer to the first layer's outputs, contracts its 32 features
  with a weight column, adds a bias and applies the logistic function.

  Each launch computes its layer as the reference's host operations do: a cast to a narrower float and back is
  the identity on the extended reals, a matrix product accumulated into zero is the host's contraction, and the
  logistic function is `1 / (1 + e^(-x))` on both sides. The neighbour sums and the neighbour counts that feed a
  launch are the same host operations of the same arrays on both sides, so they enter as the same terms and
  are never opened. Hence the kernel's result buffer, read through its run, is the reference's last stage as a
  function of the kernel's arguments; the reference's own run ends at that stage of its arguments, and the
  arguments agree. No finiteness of the inputs is used: the precondition is not consulted.

  The three frame claims are the runs themselves with the results forgotten; the idealization rewrote no
  operation, so what it must preserve is nothing.
-/
import proofs.«122091_j77335181132165_2_alg».proof.Defs
import proofs.«122091_j77335181132165_2_alg».proof.Proof.Gen.Kernel
import proofs.«122091_j77335181132165_2_alg».proof.Proof.Gen.Kernel.Skeleton
import proofs.«122091_j77335181132165_2_alg».proof.Proof.Gen.Kernel.Launch
import proofs.«122091_j77335181132165_2_alg».proof.Proof.Gen.Kernel.Points
import proofs.«122091_j77335181132165_2_alg».proof.Proof.Gen.Kernel.Frame
import proofs.«122091_j77335181132165_2_alg».proof.Proof.Gen.KernelIdeal
import proofs.«122091_j77335181132165_2_alg».proof.Proof.Gen.KernelIdeal.Skeleton
import proofs.«122091_j77335181132165_2_alg».proof.Proof.Gen.KernelIdeal.Launch
import proofs.«122091_j77335181132165_2_alg».proof.Proof.Gen.KernelIdeal.Points
import proofs.«122091_j77335181132165_2_alg».proof.Proof.Gen.KernelIdeal.Frame
import proofs.«122091_j77335181132165_2_alg».proof.Proof.Gen.ReferenceIdeal
import proofs.«122091_j77335181132165_2_alg».proof.Proof.Gen.ReferenceIdeal.Run
import proofs.«122091_j77335181132165_2_alg».proof.Proof.Gen.ReferenceIdeal.Read
import proofs.«122091_j77335181132165_2_alg».proof.Proof.Gen.Pre_finite_inputs
import Idealize.ShloMosaic.Adequacy
import Idealize.ShloMosaic.Init
import proofs.«122091_j77335181132165_2_alg».proof.Proof.KernelRun
import proofs.«122091_j77335181132165_2_alg».proof.Proof.KernelFold

noncomputable section

namespace Cert.Proof

open Idealize.ShloMosaic Idealize.SL.Sem Cert.Kernel

/-- The kernel runs at the bit-exact values and leaves its argument arrays as launched. -/
theorem frame_Kernel : Cert.frame_Kernel := fun m ρ _ => Cert.Kernel.Gen.frame m ρ

/-- The kernel runs at the ideal values and leaves its argument arrays as launched. -/
theorem frame_KernelIdeal : Cert.frame_KernelIdeal := fun m ρ _ => Cert.KernelIdeal.Gen.frame m ρ

/-- The reference runs at the ideal values and leaves its argument arrays as launched: its run with the
    result forgotten. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values both programs end with the reference's last stage of the kernel's argument arrays in
    their result buffers: the kernel's by reading its result through its run, the reference's by its own run
    from arguments that agree with the kernel's. -/
theorem algebraic : Cert.algebraic_KernelIdeal_ReferenceIdeal := by
  intro m ρ m' ρ' _ hagree
  refine ⟨fun c => Cert.ReferenceIdeal.Read.val_main_v98 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17)),
    ?_, ?_⟩
  · exact (θ_run Cert.KernelIdeal.defs _ _).mono
      (fun r h c => ⟨(h c).1.trans (Cert.Sage.Fold.result m ρ c), (h c).2⟩)
      (Cert.Sage.KRun.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v98_eq,
      (hagree c).1,
      (hagree c).2.1,
      (hagree c).2.2.1,
      (hagree c).2.2.2.1,
      (hagree c).2.2.2.2.1,
      (hagree c).2.2.2.2.2.1,
      (hagree c).2.2.2.2.2.2.1,
      (hagree c).2.2.2.2.2.2.2.1,
      (hagree c).2.2.2.2.2.2.2.2.1,
      (hagree c).2.2.2.2.2.2.2.2.2.1,
      (hagree c).2.2.2.2.2.2.2.2.2.2.1,
      (hagree c).2.2.2.2.2.2.2.2.2.2.2.1,
      (hagree c).2.2.2.2.2.2.2.2.2.2.2.2.1,
      (hagree c).2.2.2.2.2.2.2.2.2.2.2.2.2.2.2.2.1,
      (hagree c).2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
